-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128x64 : Shape := ⟨2, ![128, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_

variable [Facts]

def fn {F : FTy → Type} [FloatOps F] (main_arg0 : FVec F S100000x128 .f32) (main_arg1 : IVec S2x1600000 32) (main_arg2 : FVec F S128x128 .f32) (main_arg3 : FVec F S128x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S128x128 : Shape := ⟨2, ![128, 128]⟩
abbrev S128x64 : Shape := ⟨2, ![128, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x128 : Shape := ⟨2, ![5000, 128]⟩
abbrev S5000x1 : Shape := ⟨2, ![5000, 1]⟩
abbrev S1600000x128 : Shape := ⟨2, ![1600000, 128]⟩
abbrev S100000x64 : Shape := ⟨2, ![100000, 64]⟩
abbrev S5000x64 : Shape := ⟨2, ![5000, 64]⟩
abbrev S1600000x64 : Shape := ⟨2, ![1600000, 64]⟩

abbrev nBuf : Space → Nat
  | .hbm => 48
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x64, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S100000, .f32⟩
  | .hbm, ⟨18, _⟩ => ⟨S100000x1, .f32⟩
  | .hbm, ⟨19, _⟩ => ⟨S100000x128, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x128, .f32⟩
  | .hbm, ⟨29, _⟩ => ⟨S_, .f32⟩
  | .hbm, ⟨30, _⟩ => ⟨S100000x128, .f32⟩
  | .hbm, ⟨31, _⟩ => ⟨S1600000x1, .i32⟩
  | .hbm, ⟨32, _⟩ => ⟨S100000x128, .f32⟩
  | .hbm, ⟨33, _⟩ => ⟨S100000x64, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x64, .f32⟩
  | .hbm, ⟨43, _⟩ => ⟨S_, .f32⟩
  | .hbm, ⟨44, _⟩ => ⟨S100000x64, .f32⟩
  | .hbm, ⟨45, _⟩ => ⟨S1600000x1, .i32⟩
  | .hbm, ⟨46, _⟩ => ⟨S100000x64, .f32⟩
  | .hbm, ⟨47, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x1, .f32⟩
  | .local _ .vmem, ⟨12, _⟩ => ⟨S5000x1, .f32⟩
  | .local _ .vmem, ⟨13, _⟩ => ⟨S128x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x1, .f32⟩
  | .local _ .vmem, ⟨21, _⟩ => ⟨S5000x1, .f32⟩
  | .local _ .vmem, ⟨22, _⟩ => ⟨S5000x64, .f32⟩
  | .local _ .vmem, ⟨23, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S5000x64_S5000x64 : S5000x64.ShapeCasts S5000x64
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v33) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v34) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128x64 : Shape := ⟨2, ![128, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S100000x64 : Shape := ⟨2, ![100000, 64]⟩
abbrev S1600000x64 : Shape := ⟨2, ![1600000, 64]⟩

abbrev nBuf : Space → Nat
  | .hbm => 113
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x64, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S100000x128, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000, .f32⟩
  | .hbm, ⟨37, _⟩ => ⟨S1600000, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x128, .f32⟩
  | .hbm, ⟨47, _⟩ => ⟨S1600000x1, .f32⟩
  | .hbm, ⟨48, _⟩ => ⟨S1600000x128, .f32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S100000, .f32⟩
  | .hbm, ⟨55, _⟩ => ⟨S100000x1, .f32⟩
  | .hbm, ⟨56, _⟩ => ⟨S100000x128, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S100000x128, .f32⟩
  | .hbm, ⟨61, _⟩ => ⟨S100000x128, .f32⟩
  | .hbm, ⟨62, _⟩ => ⟨S100000x64, .f32⟩
  | .hbm, ⟨63, _⟩ => ⟨S_, .f32⟩
  | .hbm, ⟨64, _⟩ => ⟨S1600000, .f32⟩
  | .hbm, ⟨65, _⟩ => ⟨S_, .f32⟩
  | .hbm, ⟨66, _⟩ => ⟨S100000, .f32⟩
  | .hbm, ⟨67, _⟩ => ⟨S1600000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000, .f32⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000, .f32⟩
  | .hbm, ⟨82, _⟩ => ⟨S_, .i32⟩
  | .hbm, ⟨83, _⟩ => ⟨S1600000, .i32⟩
  | .hbm, ⟨84, _⟩ => ⟨S1600000, .i1⟩
  | .hbm, ⟨85, _⟩ => ⟨S_, .i32⟩
  | .hbm, ⟨86, _⟩ => ⟨S1600000, .i32⟩
  | .hbm, ⟨87, _⟩ => ⟨S1600000, .i32⟩
  | .hbm, ⟨88, _⟩ => ⟨S1600000, .i32⟩
  | .hbm, ⟨89, _⟩ => ⟨S1600000x1, .i32⟩
  | .hbm, ⟨90, _⟩ => ⟨S1600000, .f32⟩
  | .hbm, ⟨91, _⟩ => ⟨S1600000, .f32⟩
  | .hbm, ⟨92, _⟩ => ⟨S_, .i32⟩
  | .hbm, ⟨93, _⟩ => ⟨S1600000, .i32⟩
  | .hbm, ⟨94, _⟩ => ⟨S1600000, .i1⟩
  | .hbm, ⟨95, _⟩ => ⟨S_, .i32⟩
  | .hbm, ⟨96, _⟩ => ⟨S1600000, .i32⟩
  | .hbm, ⟨97, _⟩ => ⟨S1600000, .i32⟩
  | .hbm, ⟨98, _⟩ => ⟨S1600000, .i32⟩
  | .hbm, ⟨99, _⟩ => ⟨S1600000x1, .i32⟩
  | .hbm, ⟨100, _⟩ => ⟨S1600000x64, .f32⟩
  | .hbm, ⟨101, _⟩ => ⟨S1600000x1, .f32⟩
  | .hbm, ⟨102, _⟩ => ⟨S1600000x64, .f32⟩
  | .hbm, ⟨103, _⟩ => ⟨S1600000x64, .f32⟩
  | .hbm, ⟨104, _⟩ => ⟨S_, .f32⟩
  | .hbm, ⟨105, _⟩ => ⟨S100000x64, .f32⟩
  | .hbm, ⟨106, _⟩ => ⟨S1600000x1, .i32⟩
  | .hbm, ⟨107, _⟩ => ⟨S100000x64, .f32⟩
  | .hbm, ⟨108, _⟩ => ⟨S100000, .f32⟩
  | .hbm, ⟨109, _⟩ => ⟨S100000x1, .f32⟩
  | .hbm, ⟨110, _⟩ => ⟨S100000x64, .f32⟩
  | .hbm, ⟨111, _⟩ => ⟨S100000x64, .f32⟩
  | .hbm, ⟨112, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_5 : Ref sig .tc := ⟨.hbm, 38, rfl⟩
abbrev main_v27 : Ref sig .tc := ⟨.hbm, 39, rfl⟩
abbrev main_v28 : Ref sig .tc := ⟨.hbm, 40, rfl⟩
abbrev main_c_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_call0_cst : Ref sig .tc := ⟨.hbm, 59, rfl⟩
abbrev main_call0_v0 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_cst_9 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_11 : Ref sig .tc := ⟨.hbm, 73, rfl⟩
abbrev main_v54 : Ref sig .tc := ⟨.hbm, 74, rfl⟩
abbrev main_v55 : Ref sig .tc := ⟨.hbm, 75, rfl⟩
abbrev main_c_12 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_13 : Ref sig .tc := ⟨.hbm, 82, rfl⟩
abbrev main_v61 : Ref sig .tc := ⟨.hbm, 83, rfl⟩
abbrev main_v62 : Ref sig .tc := ⟨.hbm, 84, rfl⟩
abbrev main_c_14 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_c_15 : Ref sig .tc := ⟨.hbm, 92, rfl⟩
abbrev main_v69 : Ref sig .tc := ⟨.hbm, 93, rfl⟩
abbrev main_v70 : Ref sig .tc := ⟨.hbm, 94, rfl⟩
abbrev main_c_16 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_17 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KRun.lean ====
/-
  The idealized kernel's run with its result named.

  @main is three regions among stretches of host operations; the contents of every unscoped buffer at each segment
  boundary are a fold from the launch memory, ending at the contents after the last region. Every weakly fair execution
  terminates, nothing faulting, in a state whose unscoped buffers hold those last contents: in particular the result
  buffer, and the four arguments as launched.
-/
import proofs.«156982_j39058432590069_2_alg».proof.Proof.Gen.KernelIdeal.Frame

set_option maxRecDepth 16384

noncomputable section

namespace Cert.KernelIdeal.KVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_named : θ_run defs (onTc (τ := τ) (main (F := F))) ⟨m, fun _ => 0, ρ⟩ (fun r => ∀ c : Dev nD,
      r.2.mem ((c.tc : Thread nD τ).loc main_v34) = W6 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v34 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)

end Cert.KernelIdeal.KVal

end
-- ==== Proof.LibRowGatherScatter.lean ====
/-
  Row gather and row scatter-add, read at an index.

  What \`x[idx]\` of a matrix \`x : [N, C]\` at an integer vector \`idx : [E]\` (carried as \`[E, 1]\`) lowers to is a
  \`stablehlo.gather\` of whole rows: result element \`(e, k)\` is \`x\` at row \`idx[e]\` (read signed, clamped into
  \`[0, N − 1]\`) and column \`k\`. What a segment sum of rows \`upd : [E, C]\` into \`[N, C]\` lowers to is a
  \`stablehlo.scatter\` with an \`add\` body: operand element \`(n, k)\` receives every \`upd (e, k)\` whose index \`idx[e]\`,
  read signed and not clamped, is exactly \`n\`.
-/
import Idealize.ShloMosaic.Lib.ValueIdx
import Idealize.ShloMosaic.PureOps.Ideal

noncomputable section

open scoped BigOperators

namespace Cert.RowOps

open Idealize.ShloMosaic Idealize.ShloMosaic.ValueIdx

/-! ## The row gather -/

/-- The dimension numbers of a row gather: operand \`[N, C]\`, start indices \`[E, 1]\`, result \`[E, C]\`; offset axis
    \`1\`, collapsed operand axis \`0\`, the start index naming operand axis \`0\`, slices of one whole row. Their
    conditions \`wf\` are decided on a program's literal shapes. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row the gather reads for edge \`e\`: the start index read signed and clamped into \`[0, N − 1]\`. -/
def gatherRow {N E w : Nat} (hN : 0 < N) (idx : IVec ⟨2, ![E, 1]⟩ w) (e : Fin E) : Fin N :=
  ⟨min (idx (ix2 e 0)).toInt.toNat (N - 1), by omega⟩

/-- The row gather at \`(e, k)\` is the operand at row \`gatherRow e\` (the clamped start index) and column \`k\`. -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k) = x (ix2 (gatherRow hN idx e) k) := by
  unfold Host.gather
  congr 1
  funext a
  refine Fin.ext ?_
  match a with
  | ⟨0, _⟩ =>
    show (rowGatherDims N E C wf).start (ix2 e k) idx 0 + (rowGatherDims N E C wf).batchCoord (ix2 e k) 0
      + (rowGatherDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
      + (rowGatherDims N E C wf).offCoord (ix2 e k) 1 = k.val
    rw [GatherDims.batchCoord_eq_zero _ _ _ List.not_mem_nil]
    have hst : (rowGatherDims N E C wf).start (ix2 e k) idx 1 = 0 := by
      unfold GatherDims.start
      rw [dif_neg (fun h => absurd (List.mem_singleton.mp h) (show (1 : Fin 2) ≠ 0 by decide))]
    rw [hst]
    simp only [Nat.add_zero, Nat.zero_add]
    unfold GatherDims.offCoord
    rw [dif_pos ((GatherDims.mem_sKept _ _).mpr
      ⟨fun h => absurd (List.mem_singleton.mp h) (show (1 : Fin 2) ≠ 0 by decide), List.not_mem_nil⟩)]
    rfl

/-! ## The row scatter-add -/

/-- The dimension numbers of a row scatter: operand \`[N, C]\`, scatter indices \`[E, 1]\`, updates \`[E, C]\`; update
    window axis \`1\`, inserted operand axis \`0\`, the scatter index naming operand axis \`0\`. Their conditions \`wf\` are
    decided on a program's literal shapes. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Scatter
variable {N E C w : Nat} (wf : ScatterDims.WF ⟨2, ![N, C]⟩ ⟨2, ![E, 1]⟩ ⟨2, ![E, C]⟩ [1] [0] [0] 1)

/-- The operand axes the update windows go to are the ones that are not inserted. -/
theorem rowScatter_mem_sKept (a : Fin 2) :
    a ∈ (rowScatterDims N E C wf).sKept ↔ a ∉ (rowScatterDims N E C wf).insertedWindowDims := by
  simp [ScatterDims.sKept, Shape.kept, List.mem_filter, List.mem_finRange]

/-- On the row axis the window of update \`(e, k)\` starts at the scatter index \`idx[e]\`, read signed. -/
theorem rowScatter_start0 (idx : IVec ⟨2, ![E, 1]⟩ w) (e : Fin E) (k : Fin C) :
    (rowScatterDims N E C wf).start (ix2 e k) idx 0 = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e k)
      ⟨List.idxOf (0 : Fin 2) (rowScatterDims N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis the window starts at \`0\`: the scatter index names the row axis only. -/
theorem rowScatter_start1 (idx : IVec ⟨2, ![E, 1]⟩ w) (e : Fin E) (k : Fin C) :
    (rowScatterDims N E C wf).start (ix2 e k) idx 1 = 0 := by
  unfold ScatterDims.start
  rw [dif_neg (fun h => absurd (List.mem_singleton.mp h) (show (1 : Fin 2) ≠ 0 by decide))]

/-- The row axis is an inserted one: the window coordinate there is \`0\`. -/
theorem rowScatter_window0 (e : Fin E) (k : Fin C) : (rowScatterDims N E C wf).window (ix2 e k) 0 = 0 := by
  unfold ScatterDims.window
  rw [dif_neg (fun h => ((rowScatter_mem_sKept wf 0).mp h) (List.mem_singleton.mpr rfl))]

/-- On the column axis the window coordinate of update \`(e, k)\` is \`k\`. -/
theorem rowScatter_window1 (e : Fin E) (k : Fin C) : (rowScatterDims N E C wf).window (ix2 e k) 1 = k.val := by
  unfold ScatterDims.window
  rw [dif_pos ((rowScatter_mem_sKept wf 1).mpr
    (fun h => absurd (List.mem_singleton.mp h) (show (1 : Fin 2) ≠ 0 by decide)))]
  rfl

end Scatter

/-- Update \`(e, k)\` lands on operand element \`(n, k')\` exactly when the columns agree and the scatter index \`idx[e]\`,
    read signed, is the row \`n\`. -/
theorem rowScatter_resultIdx_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (k : Fin C) (n : Fin N) (k' : Fin C) :
    (rowScatterDims N E C wf).resultIdx? (ix2 e k) idx = some (ix2 n k')
      ↔ (k = k' ∧ (idx (ix2 e 0)).toInt = (n.val : Int)) := by
  have hk := k.isLt
  have hn := n.isLt
  unfold ScatterDims.resultIdx?
  constructor
  · intro h
    by_cases hall : ∀ a, 0 ≤ (rowScatterDims N E C wf).start (ix2 e k) idx a + (rowScatterDims N E C wf).window (ix2 e k) a
        ∧ (rowScatterDims N E C wf).start (ix2 e k) idx a + (rowScatterDims N E C wf).window (ix2 e k) a
          < (⟨2, ![N, C]⟩ : Shape).size a
    · rw [dif_pos hall] at h
      have heq := Option.some.inj h
      have h0 : ((rowScatterDims N E C wf).start (ix2 e k) idx 0 + (rowScatterDims N E C wf).window (ix2 e k) 0).toNat
          = n.val := congrArg (fun f => (f 0).val) heq
      have h1 : ((rowScatterDims N E C wf).start (ix2 e k) idx 1 + (rowScatterDims N E C wf).window (ix2 e k) 1).toNat
          = k'.val := congrArg (fun f => (f 1).val) heq
      have b0 := (hall 0).1
      rw [rowScatter_start0, rowScatter_window0] at h0 b0
      rw [rowScatter_start1, rowScatter_window1] at h1
      refine ⟨Fin.ext ?_, ?_⟩
      · omega
      · omega
    · rw [dif_neg hall] at h
      exact absurd h (by simp)
  · rintro ⟨rfl, hi⟩
    have hall : ∀ a, 0 ≤ (rowScatterDims N E C wf).start (ix2 e k) idx a + (rowScatterDims N E C wf).window (ix2 e k) a
        ∧ (rowScatterDims N E C wf).start (ix2 e k) idx a + (rowScatterDims N E C wf).window (ix2 e k) a
          < (⟨2, ![N, C]⟩ : Shape).size a := by
      intro a
      match a with
      | ⟨0, _⟩ =>
        show 0 ≤ (rowScatterDims N E C wf).start (ix2 e k) idx 0 + (rowScatterDims N E C wf).window (ix2 e k) 0
          ∧ (rowScatterDims N E C wf).start (ix2 e k) idx 0 + (rowScatterDims N E C wf).window (ix2 e k) 0 < (N : Int)
        rw [rowScatter_start0, rowScatter_window0, hi]
        omega
      | ⟨1, _⟩ =>
        show 0 ≤ (rowScatterDims N E C wf).start (ix2 e k) idx 1 + (rowScatterDims N E C wf).window (ix2 e k) 1
          ∧ (rowScatterDims N E C wf).start (ix2 e k) idx 1 + (rowScatterDims N E C wf).window (ix2 e k) 1 < (C : Int)
        rw [rowScatter_start1, rowScatter_window1]
        omega
    rw [dif_pos hall]
    congr 1
    funext a
    refine Fin.ext ?_
    match a with
    | ⟨0, _⟩ =>
      show ((rowScatterDims N E C wf).start (ix2 e k) idx 0 + (rowScatterDims N E C wf).window (ix2 e k) 0).toNat = n.val
      rw [rowScatter_start0, rowScatter_window0, hi]
      omega
    | ⟨1, _⟩ =>
      show ((rowScatterDims N E C wf).start (ix2 e k) idx 1 + (rowScatterDims N E C wf).window (ix2 e k) 1).toNat = k.val
      rw [rowScatter_start1, rowScatter_window1]
      omega

/-- THE ROW SCATTER-ADD AT \`(n, k)\`: the operand element plus the sum of the update elements \`upd (e, k)\` over the
    edges \`e\` whose scatter index \`idx[e]\`, read signed and not clamped, is the row \`n\`. -/
theorem rowScatterAdd_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (k : Fin C) :
    Ideal.hostScatterAdd (rowScatterDims N E C wf) x idx upd (ix2 n k)
      = x (ix2 n k)
        + ∑ e ∈ Finset.univ.filter (fun e : Fin E => (idx (ix2 e 0)).toInt = (n.val : Int)), upd (ix2 e k) := by
  unfold Ideal.hostScatterAdd
  congr 1
  -- the update indices that land on \`(n, k)\` are the \`(e, k)\` with \`idx[e] = n\`: re-index by the edge coordinate
  refine Finset.sum_nbij' (fun j => (j 0 : Fin E)) (fun e => ix2 e k) ?_ ?_ ?_ ?_ ?_
  · intro j hj
    obtain ⟨a, b, rfl⟩ : ∃ (a : Fin E) (b : Fin C), j = ix2 a b := ⟨j 0, j 1, eq_ix2 j⟩
    have h := (rowScatter_resultIdx_iff wf idx a b n k).mp (Finset.mem_filter.mp hj).2
    exact Finset.mem_filter.mpr ⟨Finset.mem_univ _, h.2⟩
  · intro e he
    exact Finset.mem_filter.mpr ⟨Finset.mem_univ _,
      (rowScatter_resultIdx_iff wf idx e k n k).mpr ⟨rfl, (Finset.mem_filter.mp he).2⟩⟩
  · intro j hj
    obtain ⟨a, b, rfl⟩ : ∃ (a : Fin E) (b : Fin C), j = ix2 a b := ⟨j 0, j 1, eq_ix2 j⟩
    have h := (rowScatter_resultIdx_iff wf idx a b n k).mp (Finset.mem_filter.mp hj).2
    show ix2 a k = ix2 a b
    rw [h.1]
  · intro e _
    rfl
  · intro j hj
    obtain ⟨a, b, rfl⟩ : ∃ (a : Fin E) (b : Fin C), j = ix2 a b := ⟨j 0, j 1, eq_ix2 j⟩
    have h := (rowScatter_resultIdx_iff wf idx a b n k).mp (Finset.mem_filter.mp hj).2
    show upd (ix2 a b) = upd (ix2 a k)
    rw [h.1]

end Cert.RowOps

end
-- ==== Proof.LibVecGatherScatter.lean ====
/-
  Gather and scatter-add of a vector, read at an index.

  What `x[idx]` of a vector `x : [N]` at an integer vector `idx : [E]` (carried as `[E, 1]`) lowers to is a
  `stablehlo.gather` of single elements: result element `e` is `x` at `idx[e]` (read signed, clamped into
  `[0, N − 1]`). What a segment sum of `upd : [E]` into `[N]` lowers to is a `stablehlo.scatter` with an `add` body:
  operand element `n` receives every `upd e` whose index `idx[e]`, read signed and not clamped, is exactly `n`.
-/
import Idealize.ShloMosaic.Lib.ValueIdx
import Idealize.ShloMosaic.PureOps.Ideal

noncomputable section

open scoped BigOperators

namespace Cert.VecOps

open Idealize.ShloMosaic Idealize.ShloMosaic.ValueIdx

/-! ## The element gather -/

/-- The dimension numbers of an element gather: operand `[N]`, start indices `[E, 1]`, result `[E]`; no offset axis,
    the operand's one axis collapsed, the start index naming it, slices of one element. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The element the gather reads for edge `e`: the start index read signed and clamped into `[0, N − 1]`. -/
def gatherElt {N E w : Nat} (hN : 0 < N) (idx : IVec ⟨2, ![E, 1]⟩ w) (e : Fin E) : Fin N :=
  ⟨min (idx (ix2 e 0)).toInt.toNat (N - 1), by omega⟩

/-- The element gather at `e` is the operand at `gatherElt e` (the clamped start index). -/
theorem vecGather_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (gatherElt hN idx e)) := by
  unfold Host.gather
  congr 1
  funext a
  refine Fin.ext ?_
  match a with
  | ⟨0, _⟩ =>
    show (vecGatherDims N E wf).start (ix1 e) idx 0 + (vecGatherDims N E wf).batchCoord (ix1 e) 0
      + (vecGatherDims N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N E wf).startIndexMap from List.mem_singleton.mpr rfl)]
    have hsi : (vecGatherDims N E wf).siIdx (ix1 e) ⟨List.idxOf (0 : Fin 1) (vecGatherDims N E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

/-! ## The element scatter-add -/

/-- The dimension numbers of an element scatter: operand `[N]`, scatter indices `[E, 1]`, updates `[E]`; no update
    window axis, the operand's one axis inserted, the scatter index naming it. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Scatter
variable {N E w : Nat} (wf : ScatterDims.WF ⟨1, ![N]⟩ ⟨2, ![E, 1]⟩ ⟨1, ![E]⟩ [] [0] [0] 1)

/-- The operand axes the update windows go to are the ones that are not inserted. -/
theorem vecScatter_mem_sKept (a : Fin 1) :
    a ∈ (vecScatterDims N E wf).sKept ↔ a ∉ (vecScatterDims N E wf).insertedWindowDims := by
  simp [ScatterDims.sKept, Shape.kept, List.mem_filter, List.mem_finRange]

/-- The window of update `e` starts at the scatter index `idx[e]`, read signed. -/
theorem vecScatter_start0 (idx : IVec ⟨2, ![E, 1]⟩ w) (e : Fin E) :
    (vecScatterDims N E wf).start (ix1 e) idx 0 = (idx (ix2 e 0)).toInt := by
  unfold ScatterDims.start
  rw [dif_pos (show (0 : Fin 1) ∈ (vecScatterDims N E wf).scatterDimsToOperandDims from List.mem_singleton.mpr rfl)]
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The operand's axis is an inserted one: the window coordinate there is `0`. -/
theorem vecScatter_window0 (e : Fin E) : (vecScatterDims N E wf).window (ix1 e) 0 = 0 := by
  unfold ScatterDims.window
  rw [dif_neg (fun h => ((vecScatter_mem_sKept wf 0).mp h) (List.mem_singleton.mpr rfl))]

end Scatter

/-- Update `e` lands on operand element `n` exactly when the scatter index `idx[e]`, read signed, is `n`. -/
theorem vecScatter_resultIdx_iff {N E w : Nat}
    (wf : ScatterDims.WF ⟨1, ![N]⟩ ⟨2, ![E, 1]⟩ ⟨1, ![E]⟩ [] [0] [0] 1)
    (idx : IVec ⟨2, ![E, 1]⟩ w) (e : Fin E) (n : Fin N) :
    (vecScatterDims N E wf).resultIdx? (ix1 e) idx = some (ix1 n)
      ↔ (idx (ix2 e 0)).toInt = (n.val : Int) := by
  have hn := n.isLt
  unfold ScatterDims.resultIdx?
  constructor
  · intro h
    by_cases hall : ∀ a, 0 ≤ (vecScatterDims N E wf).start (ix1 e) idx a + (vecScatterDims N E wf).window (ix1 e) a
        ∧ (vecScatterDims N E wf).start (ix1 e) idx a + (vecScatterDims N E wf).window (ix1 e) a
          < (⟨1, ![N]⟩ : Shape).size a
    · rw [dif_pos hall] at h
      have heq := Option.some.inj h
      have h0 : ((vecScatterDims N E wf).start (ix1 e) idx 0 + (vecScatterDims N E wf).window (ix1 e) 0).toNat
          = n.val := congrArg (fun f => (f 0).val) heq
      have b0 := (hall 0).1
      rw [vecScatter_start0, vecScatter_window0] at h0 b0
      omega
    · rw [dif_neg hall] at h
      exact absurd h (by simp)
  · intro hi
    have hall : ∀ a, 0 ≤ (vecScatterDims N E wf).start (ix1 e) idx a + (vecScatterDims N E wf).window (ix1 e) a
        ∧ (vecScatterDims N E wf).start (ix1 e) idx a + (vecScatterDims N E wf).window (ix1 e) a
          < (⟨1, ![N]⟩ : Shape).size a := by
      intro a
      match a with
      | ⟨0, _⟩ =>
        show 0 ≤ (vecScatterDims N E wf).start (ix1 e) idx 0 + (vecScatterDims N E wf).window (ix1 e) 0
          ∧ (vecScatterDims N E wf).start (ix1 e) idx 0 + (vecScatterDims N E wf).window (ix1 e) 0 < (N : Int)
        rw [vecScatter_start0, vecScatter_window0, hi]
        omega
    rw [dif_pos hall]
    congr 1
    funext a
    refine Fin.ext ?_
    match a with
    | ⟨0, _⟩ =>
      show ((vecScatterDims N E wf).start (ix1 e) idx 0 + (vecScatterDims N E wf).window (ix1 e) 0).toNat = n.val
      rw [vecScatter_start0, vecScatter_window0, hi]
      omega

/-- THE ELEMENT SCATTER-ADD AT `n`: the operand element plus the sum of the update elements `upd e` over the edges
    `e` whose scatter index `idx[e]`, read signed and not clamped, is `n`. -/
theorem vecScatterAdd_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Ideal.hostScatterAdd (vecScatterDims N E wf) x idx upd (ix1 n)
      = x (ix1 n)
        + ∑ e ∈ Finset.univ.filter (fun e : Fin E => (idx (ix2 e 0)).toInt = (n.val : Int)), upd (ix1 e) := by
  unfold Ideal.hostScatterAdd
  congr 1
  refine Finset.sum_nbij' (fun j => (j 0 : Fin E)) (fun e => ix1 e) ?_ ?_ ?_ ?_ ?_
  · intro j hj
    obtain ⟨a, rfl⟩ : ∃ (a : Fin E), j = ix1 a := ⟨j 0, eq_ix1 j⟩
    exact Finset.mem_filter.mpr ⟨Finset.mem_univ _, (vecScatter_resultIdx_iff wf idx a n).mp (Finset.mem_filter.mp hj).2⟩
  · intro e he
    exact Finset.mem_filter.mpr ⟨Finset.mem_univ _, (vecScatter_resultIdx_iff wf idx e n).mpr (Finset.mem_filter.mp he).2⟩
  · intro j _
    exact (eq_ix1 j).symm
  · intro e _
    rfl
  · intro j _
    exact congrArg upd (eq_ix1 j)

end Cert.VecOps

end
-- ==== Proof.LibRealSums.lean ====
/-
  General lemmas on extended reals that are real numbers. `IsR a` says the extended real `a` is (the coercion of) a real
  number; real numbers are closed under sums, products, maxima and finite sums, and on them the extended reals' arithmetic
  is the reals'. Consequences: a count of ones is a natural number, division by a nonzero real is multiplication by its
  reciprocal, and a finite aggregation (a sum over a finite set plus one more term, scaled by a constant) commutes with a
  linear projection `x ↦ ∑ k, x k * W k`.
-/
import Idealize.ShloMosaic.PureOps.Ideal

noncomputable section

namespace Cert.RealSums

open Idealize.ShloMosaic
open scoped BigOperators

/-- An extended real is real when it is the coercion of a real number (it is neither `⊥` nor `⊤`). -/
def IsR (a : EReal) : Prop := ∃ r : ℝ, a = (r : EReal)

/-- The coercion of a real number is real. -/
theorem IsR.coe (r : ℝ) : IsR (r : EReal) := ⟨r, rfl⟩

/-- Zero is real. -/
theorem IsR.zero : IsR 0 := ⟨0, rfl⟩

/-- One is real. -/
theorem IsR.one : IsR 1 := ⟨1, rfl⟩

/-- The sum of two reals is real. -/
theorem IsR.add {a b : EReal} (ha : IsR a) (hb : IsR b) : IsR (a + b) := by
  obtain ⟨x, rfl⟩ := ha
  obtain ⟨y, rfl⟩ := hb
  exact ⟨x + y, (EReal.coe_add x y).symm⟩

/-- The product of two reals is real. -/
theorem IsR.mul {a b : EReal} (ha : IsR a) (hb : IsR b) : IsR (a * b) := by
  obtain ⟨x, rfl⟩ := ha
  obtain ⟨y, rfl⟩ := hb
  exact ⟨x * y, (EReal.coe_mul x y).symm⟩

/-- The maximum of two reals is real. -/
theorem IsR.max {a b : EReal} (ha : IsR a) (hb : IsR b) : IsR (Max.max a b) := by
  obtain ⟨x, rfl⟩ := ha
  obtain ⟨y, rfl⟩ := hb
  rcases le_total x y with h | h
  · exact ⟨y, max_eq_right (EReal.coe_le_coe_iff.2 h)⟩
  · exact ⟨x, max_eq_left (EReal.coe_le_coe_iff.2 h)⟩

/-- A finite sum of reals is real. -/
theorem IsR.sum {ι : Type*} (s : Finset ι) (f : ι → EReal) (h : ∀ i ∈ s, IsR (f i)) : IsR (∑ i ∈ s, f i) := by
  classical
  induction s using Finset.induction_on with
  | empty => rw [Finset.sum_empty]; exact IsR.zero
  | insert a s ha ih =>
    rw [Finset.sum_insert ha]
    exact (h a (Finset.mem_insert_self a s)).add (ih fun i hi => h i (Finset.mem_insert_of_mem hi))

/-- The coercion from the reals to the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A sum of ones over a finite set is the set's cardinality. -/
theorem sum_one_eq_card {ι : Type*} (s : Finset ι) : (∑ _i ∈ s, (1 : EReal)) = ((s.card : ℝ) : EReal) := by
  rw [Finset.sum_const, nsmul_one, EReal.coe_coe_eq_natCast]

/-- One more than a count of ones, started at zero, is a positive real number. -/
theorem count_add_one_pos {ι : Type*} (s : Finset ι) :
    ∃ d : ℝ, 0 < d ∧ ((0 : EReal) + ∑ _i ∈ s, (1 : EReal)) + 1 = (d : EReal) := by
  refine ⟨(s.card : ℝ) + 1, by positivity, ?_⟩
  rw [sum_one_eq_card, zero_add, EReal.coe_add, EReal.coe_one]

/-- Multiplying by the quotient `1 / d` of a nonzero real `d` is dividing by `d`. -/
theorem mul_div_one {d : ℝ} (hd : d ≠ 0) (a : EReal) : a * Ideal.div 1 (d : EReal) = Ideal.div a (d : EReal) := by
  rw [Ideal.div_coe hd, Ideal.div_coe hd, one_mul]

/-- The quotient of one by a nonzero real `d` is the real number `1 / d`. -/
theorem div_one_isR {d : ℝ} (hd : d ≠ 0) : Ideal.div 1 (d : EReal) = ((1 / d : ℝ) : EReal) := by
  rw [Ideal.div_coe hd, one_mul]

/-- Aggregation commutes with a linear projection: summing the projections `∑ k, x k * W k` of finitely many real rows,
    adding one more row's projection and scaling by a real constant `c` gives the projection of the row that sums the rows
    coordinatewise, adds the extra row and scales by `c`. -/
theorem aggregate_project {ε : Type*} (P : Finset ε) {K : ℕ} (hrow : ε → Fin K → EReal) (hn : Fin K → EReal)
    (W : Fin K → EReal) (c : EReal) (hh : ∀ e k, IsR (hrow e k)) (hhn : ∀ k, IsR (hn k)) (hW : ∀ k, IsR (W k))
    (hc : IsR c) :
    ((0 + ∑ e ∈ P, ∑ k, hrow e k * W k) + ∑ k, hn k * W k) * c
      = ∑ k, (((0 + ∑ e ∈ P, hrow e k) + hn k) * c) * W k := by
  have hh' : ∀ e k, ∃ r : ℝ, hrow e k = (r : EReal) := hh
  have hhn' : ∀ k, ∃ r : ℝ, hn k = (r : EReal) := hhn
  have hW' : ∀ k, ∃ r : ℝ, W k = (r : EReal) := hW
  choose H hH using hh'
  choose N hN using hhn'
  choose V hV using hW'
  obtain ⟨C, rfl⟩ := hc
  -- everything is the coercion of a real expression
  simp only [hH, hN, hV, zero_add, ← EReal.coe_mul, ← coe_sum, ← EReal.coe_add]
  -- the identity in the reals: exchange the two sums, then distribute
  congr 1
  rw [Finset.sum_comm, ← Finset.sum_add_distrib, Finset.sum_mul]
  refine Finset.sum_congr rfl fun k _ => ?_
  rw [← Finset.sum_mul]
  ring

end Cert.RealSums

end
-- ==== Proof.LibGcnSpec.lean ====
/-
  A two-layer graph convolution, as one function of its arguments, and the law that joins its two arrangements.

  Nodes `i : Fin N`, edges `e : Fin E`. An edge carries a source row (its start index read signed and clamped into
  `[0, N - 1]`) and contributes to the node its target index names exactly (read signed, not clamped); `into dst i` is
  the set of edges whose target is `i`. The degree of `i` is one more than the number of those edges, and
  `dinv i = deg(i)^(-1/2)` is a nonnegative real number.

  One layer applied to a feature matrix `S` is, in the symmetric normalisation,
      out(i, c) = sum over e into i of S(src e, c) * (dinv(i) * dinv(src e))  +  S(i, c) * (dinv(i) * dinv(i))      (layerR)
  and, with the factor of the target node taken out of the sum and the rows scaled once,
      out(i, c) = ((sum over e into i of S(src e, c) * dinv(src e)) + S(i, c) * dinv(i)) * dinv(i)                  (layerK).
  The two agree on the extended reals because `dinv(i)` is a NONNEGATIVE REAL: multiplication by such a factor
  distributes over any sum of extended reals (no finiteness of `S` is needed), and products commute and associate.
-/
import Idealize.ShloMosaic.PureOps.Ideal
import Idealize.ShloMosaic.Lib.ValueIdx
import proofs.«156982_j39058432590069_2_alg».proof.Proof.LibRowGatherScatter
import proofs.«156982_j39058432590069_2_alg».proof.Proof.LibVecGatherScatter
import proofs.«156982_j39058432590069_2_alg».proof.Proof.LibRealSums

noncomputable section

open scoped BigOperators

namespace Cert.Gcn

open Idealize.ShloMosaic Idealize.ShloMosaic.ValueIdx

variable {N E : Nat}

/-- A rank-2 array of extended reals read at coordinates. -/
abbrev rd2 (a b : Nat) (f : (⟨2, ![a, b]⟩ : Shape).Idx → EReal) (i : Fin a) (j : Fin b) : EReal := f (ix2 i j)

/-- The edges whose target index, read signed, is exactly the node `i`. -/
def into (dst : IVec ⟨2, ![E, 1]⟩ 32) (i : Fin N) : Finset (Fin E) :=
  Finset.univ.filter (fun e : Fin E => (dst (ix2 e 0)).toInt = (i.val : Int))

/-- `deg(i)^(-1/2)`: the reciprocal square root of one more than the number of edges into `i`. -/
def dinv (dst : IVec ⟨2, ![E, 1]⟩ 32) (i : Fin N) : EReal :=
  Ideal.rsqrt ((((0 : EReal) + ∑ _e ∈ into dst i, (1 : EReal))) + 1)

/-- The source row of edge `e`: the start index read signed and clamped into `[0, N - 1]`. -/
abbrev srcRow (hN : 0 < N) (src : IVec ⟨2, ![E, 1]⟩ 32) (e : Fin E) : Fin N := Cert.RowOps.gatherRow hN src e

/-- One layer with the target's factor outside the sum (rows scaled by `dinv` before and after the aggregation). -/
def layerK (hN : 0 < N) {C : Nat} (src dst : IVec ⟨2, ![E, 1]⟩ 32) (S : Fin N → Fin C → EReal) (i : Fin N) (c : Fin C) :
    EReal :=
  (((0 : EReal) + ∑ e ∈ into dst i, S (srcRow hN src e) c * dinv dst (srcRow hN src e)) + S i c * dinv dst i)
    * dinv dst i

/-- One layer in the symmetric normalisation: every edge's message scaled by `dinv(target) * dinv(source)`, the
    target's factor read at the clamped target index `dstw`. -/
def layerR (hN : 0 < N) {C : Nat} (src dstw dst : IVec ⟨2, ![E, 1]⟩ 32) (S : Fin N → Fin C → EReal) (i : Fin N)
    (c : Fin C) : EReal :=
  ((0 : EReal) + ∑ e ∈ into dst i,
      S (srcRow hN src e) c * (dinv dst (Cert.VecOps.gatherElt hN dstw e) * dinv dst (Cert.VecOps.gatherElt hN src e)))
    + S i c * (dinv dst i * dinv dst i)

/-- A dense product read at an entry. -/
def dense {K C : Nat} (X : Fin N → Fin K → EReal) (W : Fin K → Fin C → EReal) (i : Fin N) (c : Fin C) : EReal :=
  ∑ k : Fin K, X i k * W k c

/-- The rectified first layer. -/
def hidden (hN : 0 < N) {D H : Nat} (src dst : IVec ⟨2, ![E, 1]⟩ 32) (x : Fin N → Fin D → EReal)
    (W1 : Fin D → Fin H → EReal) (i : Fin N) (k : Fin H) : EReal :=
  max (layerK hN src dst (dense x W1) i k) 0

/-- THE RESULT: two layers, the first rectified. -/
def G (hN : 0 < N) {D H C : Nat} (src dst : IVec ⟨2, ![E, 1]⟩ 32) (x : Fin N → Fin D → EReal)
    (W1 : Fin D → Fin H → EReal) (W2 : Fin H → Fin C → EReal) (i : Fin N) (c : Fin C) : EReal :=
  layerK hN src dst (dense (hidden hN src dst x W1) W2) i c

/-- `dinv` is a nonnegative real number at every node. -/
theorem dinv_real (dst : IVec ⟨2, ![E, 1]⟩ 32) (i : Fin N) : ∃ r : ℝ, 0 ≤ r ∧ dinv dst i = (r : EReal) := by
  obtain ⟨d, hd, hsum⟩ := Cert.RealSums.count_add_one_pos (into dst i)
  refine ⟨(Real.sqrt d)⁻¹, inv_nonneg.mpr (Real.sqrt_nonneg d), ?_⟩
  unfold dinv
  rw [hsum, Ideal.rsqrt_coe, if_neg (not_lt.mpr hd.le), if_neg hd.ne']

/-- Multiplication by a nonnegative real distributes over a finite sum of extended reals. -/
theorem sum_mul_real {ι : Type*} (s : Finset ι) (f : ι → EReal) (r : ℝ) (hr : 0 ≤ r) :
    (∑ e ∈ s, f e) * (r : EReal) = ∑ e ∈ s, f e * (r : EReal) := by
  classical
  induction s using Finset.induction_on with
  | empty => rw [Finset.sum_empty, Finset.sum_empty, zero_mul]
  | insert a s ha ih =>
    rw [Finset.sum_insert ha, Finset.sum_insert ha,
      EReal.right_distrib_of_nonneg_of_ne_top (EReal.coe_nonneg.mpr hr) (EReal.coe_ne_top r), ih]

/-- THE LAW: with the target's factor a nonnegative real, taking it out of the aggregation changes nothing. -/
theorem layer_law {ι : Type*} (s : Finset ι) (a ds : ι → EReal) (b : EReal) (r : ℝ) (hr : 0 ≤ r) :
    (((0 : EReal) + ∑ e ∈ s, a e * ds e) + b * (r : EReal)) * (r : EReal)
      = ((0 : EReal) + ∑ e ∈ s, a e * ((r : EReal) * ds e)) + b * ((r : EReal) * (r : EReal)) := by
  have hr0 : (0 : EReal) ≤ (r : EReal) := EReal.coe_nonneg.mpr hr
  rw [EReal.right_distrib_of_nonneg_of_ne_top hr0 (EReal.coe_ne_top r),
    EReal.right_distrib_of_nonneg_of_ne_top hr0 (EReal.coe_ne_top r), zero_mul, sum_mul_real s _ r hr, mul_assoc]
  congr 2
  refine Finset.sum_congr rfl fun e _ => ?_
  rw [mul_assoc, mul_comm (ds e) (r : EReal)]

/-- The two arrangements of a layer agree, provided the clamped target index of an edge into `i` is `i`. -/
theorem layerK_eq_layerR (hN : 0 < N) {C : Nat} (src dstw dst : IVec ⟨2, ![E, 1]⟩ 32)
    (hd : ∀ (i : Fin N) (e : Fin E), e ∈ into dst i → Cert.VecOps.gatherElt hN dstw e = i)
    (S : Fin N → Fin C → EReal) (i : Fin N) (c : Fin C) :
    layerK hN src dst S i c = layerR hN src dstw dst S i c := by
  obtain ⟨r, hr, hri⟩ := dinv_real dst i
  unfold layerK layerR
  rw [hri, layer_law (into dst i) _ _ _ r hr]
  congr 2
  refine Finset.sum_congr rfl fun e he => ?_
  rw [hd i e he, hri]
  rfl

end Cert.Gcn

end
-- ==== Proof.LibGcnOps.lean ====
/-
  The two host patterns of a graph convolution read at a node, against the specification's terms.

  (1) Ones scattered into zeros at the edges' target indices, plus one, under the reciprocal square root: at node `n`
      this is `dinv dst n` — the scatter-add leaves at `n` zero plus one per edge whose target index is `n`.
  (2) Rows gathered at the edges' source indices and scatter-added into zeros at the target indices: at `(n, k)`
      this is zero plus the sum, over the edges into `n`, of the feature matrix at the edge's source row and column `k`.
  Both are generic in the numbers of nodes, edges and columns.
-/
import Idealize.ShloMosaic.PureOps.Ideal
import Idealize.ShloMosaic.PureOps.Ideal.Laws
import Idealize.ShloMosaic.Lib.ValueIdx
import Idealize.ShloMosaic.Lib.IdealHost
import proofs.«156982_j39058432590069_2_alg».proof.Proof.LibGcnSpec

noncomputable section

open scoped BigOperators

namespace Cert.Gcn

open Idealize.ShloMosaic Idealize.ShloMosaic.ValueIdx

/-- The reciprocal square root of (ones scattered into zeros at the target indices, plus one), at node `n`. -/
theorem invSqrtDegree_apply {N E : ℕ} (wf : ScatterDims.WF ⟨1, ![N]⟩ ⟨2, ![E, 1]⟩ ⟨1, ![E]⟩ [] [0] [0] 1)
    (hz : (⟨0, ![]⟩ : Shape).BroadcastsInDim ⟨1, ![N]⟩ ![]) (ho : (⟨0, ![]⟩ : Shape).BroadcastsInDim ⟨1, ![E]⟩ ![])
    (dst : IVec ⟨2, ![E, 1]⟩ 32) (n : Fin N) :
    Host.rsqrt (F := Ideal) (addf (Host.scatterAdd (F := Ideal) (Cert.VecOps.vecScatterDims N E wf)
          (broadcastInDim ⟨1, ![N]⟩ ![] hz (constant (F := Ideal) ⟨0, ![]⟩ .f32 0x00000000#32)) dst
          (broadcastInDim ⟨1, ![E]⟩ ![] ho (constant (F := Ideal) ⟨0, ![]⟩ .f32 0x3F800000#32)))
        (broadcastInDim ⟨1, ![N]⟩ ![] hz (constant (F := Ideal) ⟨0, ![]⟩ .f32 0x3F800000#32))) (ix1 n)
      = dinv dst n := by
  unfold Host.rsqrt addf Host.scatterAdd dinv into
  rw [Ideal.hostUnary_rsqrt_def, Ideal.addf_def, Ideal.hostScatterAdd_def, Cert.VecOps.vecScatterAdd_apply wf _ dst _ n]
  unfold broadcastInDim constant
  rw [Ideal.ofBits_def, Ideal.ofBits_def, Ideal.ofBits_zero_f32, Ideal.ofBits_one_f32]

/-- Rows gathered at the source indices and scatter-added into zeros at the target indices, at `(n, k)`. -/
theorem aggregate_apply {N E C : ℕ} (hN : 0 < N)
    (wfG : GatherDims.WF ⟨2, ![N, C]⟩ ⟨2, ![E, 1]⟩ ⟨2, ![E, C]⟩ [1] [0] [] [0] [] 1 ![1, C])
    (wfS : ScatterDims.WF ⟨2, ![N, C]⟩ ⟨2, ![E, 1]⟩ ⟨2, ![E, C]⟩ [1] [0] [0] 1)
    (hz : (⟨0, ![]⟩ : Shape).BroadcastsInDim ⟨2, ![N, C]⟩ ![])
    (S : (⟨2, ![N, C]⟩ : Shape).Idx → EReal) (src dst : IVec ⟨2, ![E, 1]⟩ 32) (n : Fin N) (k : Fin C) :
    Host.scatterAdd (F := Ideal) (Cert.RowOps.rowScatterDims N E C wfS)
        (broadcastInDim ⟨2, ![N, C]⟩ ![] hz (constant (F := Ideal) ⟨0, ![]⟩ .f32 0x00000000#32)) dst
        (Host.gather (Cert.RowOps.rowGatherDims N E C wfG) S src) (ix2 n k)
      = (0 : EReal) + ∑ e ∈ into dst n, S (ix2 (srcRow hN src e) k) := by
  unfold Host.scatterAdd into
  rw [Ideal.hostScatterAdd_def, Cert.RowOps.rowScatterAdd_apply wfS _ dst _ n k]
  congr 1
  · unfold broadcastInDim constant
    rw [Ideal.ofBits_def, Ideal.ofBits_zero_f32]
  · exact Finset.sum_congr rfl fun e _ => Cert.RowOps.rowGather_apply hN wfG S src e k

end Cert.Gcn

end
-- ==== Proof.LibPlainDot.lean ====
/-
  A plain matrix product read at coordinates.

  For the dimension numbers of an `M×K` by `K×N` product (contract the left operand's second axis with the right
  operand's first, no batch axes), the contraction's sum at the output entry `(r, c)` is the textbook
  `∑ k, lhs (r, k) * rhs (k, c)`: the one-axis contraction index is re-indexed by its coordinate.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The dimension numbers `<[1], [0], [0], [1]>` of an `M×K` by `K×N` product, at any witness of their conditions. -/
abbrev dims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's index at output `(r, c)` and contraction index `q` is `(r, q)`. -/
theorem lhsIdx_eq (r : Fin M) (c : Fin N) (k : Fin K) :
    (dims M K N wf).lhsIdx (ix2 r c) ((contrEquiv1 (dims M K N wf) K rfl rfl).symm k) = ix2 r k := by
  have hk := contrEquiv1_symm_val (dims M K N wf) K rfl rfl k
  funext a
  refine Fin.ext ?_
  match a with
  | ⟨0, _⟩ =>
    show ((dims M K N wf).lhsIdx (ix2 r c) _ 0).val = r.val
    unfold DotDims.lhsIdx
    rw [dif_neg (show ¬(0 : Fin 2) ∈ (dims M K N wf).lhsBatch from List.not_mem_nil),
      dif_pos (show (0 : Fin 2) ∈ (dims M K N wf).lhsNonContracting from List.mem_singleton.mpr rfl)]
    rfl
  | ⟨1, _⟩ =>
    exact ((dims M K N wf).lhsIdx_val_of_single rfl (ix2 r c) _).trans hk

/-- The right operand's index at output `(r, c)` and contraction index `q` is `(q, c)`. -/
theorem rhsIdx_eq (r : Fin M) (c : Fin N) (k : Fin K) :
    (dims M K N wf).rhsIdx (ix2 r c) ((contrEquiv1 (dims M K N wf) K rfl rfl).symm k) = ix2 k c := by
  have hk := contrEquiv1_symm_val (dims M K N wf) K rfl rfl k
  funext a
  refine Fin.ext ?_
  match a with
  | ⟨0, _⟩ =>
    exact ((dims M K N wf).rhsIdx_val_of_single rfl (ix2 r c) _).trans hk
  | ⟨1, _⟩ =>
    show ((dims M K N wf).rhsIdx (ix2 r c) _ 1).val = c.val
    unfold DotDims.rhsIdx
    rw [dif_neg (show ¬(1 : Fin 2) ∈ (dims M K N wf).rhsBatch from List.not_mem_nil),
      dif_pos (show (1 : Fin 2) ∈ (dims M K N wf).rhsNonContracting from List.mem_singleton.mpr rfl)]
    rfl

/-- THE CONTRACTION at `(r, c)`: the sum over `k` of `lhs (r, k) * rhs (k, c)`. -/
theorem contraction_apply (lhs : (⟨2, ![M, K]⟩ : Shape).Idx → EReal) (rhs : (⟨2, ![K, N]⟩ : Shape).Idx → EReal)
    (r : Fin M) (c : Fin N) :
    (∑ q : (dims M K N wf).contr.Idx,
        lhs ((dims M K N wf).lhsIdx (ix2 r c) q) * rhs ((dims M K N wf).rhsIdx (ix2 r c) q))
      = ∑ k : Fin K, lhs (ix2 r k) * rhs (ix2 k c) := by
  rw [← Equiv.sum_comp (contrEquiv1 (dims M K N wf) K rfl rfl).symm]
  refine Finset.sum_congr rfl fun k _ => ?_
  rw [lhsIdx_eq wf r c k, rhsIdx_eq wf r c k]

/-- A matrix-unit product into a zero accumulator, at the exact-real instance, read at `(r, c)`. -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (dims M K N wf) prec lhs rhs (constant ⟨2, ![M, N]⟩ .f32 0x00000000#32) (ix2 r c)
      = ∑ k : Fin K, lhs (ix2 r k) * rhs (ix2 k c) := by
  rw [Ideal.matmul_constant_zero_apply]
  exact contraction_apply wf lhs rhs r c

/-- The host's product, at the exact-real instance, read at `(r, c)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (dims M K N wf) prec sched lhs rhs (ix2 r c)
      = ∑ k : Fin K, lhs (ix2 r k) * rhs (ix2 k c) := by
  rw [Ideal.dotGeneral_apply]
  exact contraction_apply wf lhs rhs r c

end Idealize.ShloMosaic.PlainDot

end
-- ==== Proof.LibKeepdims.lean ====
/-
  Row statistics kept as a column.

  A row-wise reduction of an `[a, b]` matrix gives one number per row; kept as an `[a, 1]` column and broadcast
  back over the `b` columns, every entry of row `p` sees row `p`'s number. These are the three index facts of
  that pattern: the reduced index with the column put back, the vector cast to a column, the column broadcast
  over the columns.
-/
import Idealize.ShloMosaic.PureOps.Ideal
import Idealize.ShloMosaic.PureOps.Ideal.Laws
import Idealize.ShloMosaic.Lib.ValueIdx
import Idealize.ShloMosaic.Lib.Pipeline.Value

noncomputable section

namespace Idealize.ShloMosaic.Keepdims

open Idealize.ShloMosaic Idealize.ShloMosaic.ValueIdx

variable {α : Type}

/-- The row index `p` with column `k` put back is `(p, k)`. -/
theorem lift_row {a b : Nat} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the columns of an `[a, b]` matrix, read at row `p`, is the sum of that row's entries. -/
theorem rowSum_apply {a b : Nat} {φ : FTy} (x : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (p : Fin a) :
    multiReduction .add [1] ⟨1, ![a]⟩ x acc h hφ hacc (ix1 p) = ∑ k : Fin b, x (ix2 p k) := by
  rw [Ideal.multiReduction_add_single]
  exact Finset.sum_congr rfl fun k _ => congrArg x (lift_row h p k)

/-- An `[a]` vector cast to an `[a, 1]` column reads, at `(p, u)`, the vector at `p`. -/
theorem shapeCast_a_a1_apply {a : Nat} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at row `p`. -/
theorem broadcastTo_a1_ab_apply {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.KRegion0.lean ====
/-
  The first region's output array, read at coordinates.

  The region walks the 100000 rows in 20 blocks of 5000. At block `t` its body reads rows `5000 t … 5000 t + 4999`
  of the `[100000, 128]` array `x` and of the `[100000, 1]` column `d`, and the whole `[128, 128]` matrix `w`; it
  multiplies the row block by `w` into a zero accumulator and scales each row by the column's entry: entry `(p, q)`
  of the stored block is `(∑ k, x(p, k) * w(k, q)) * d(p, 0)`. At the exact reals the change of float format on the
  way into the product is the identity and the product into zero is the plain sum. Every block is therefore the
  restriction of ONE function of the whole arrays,
      out(i, k) = (∑ j, x(i, j) * w(j, k)) * d(i, 0),
  and since the 20 blocks tile the rows (row `r` lies in block `r / 5000`), the array the region leaves is that
  function.
-/
import proofs.«156982_j39058432590069_2_alg».proof.Proof.Gen.KernelIdeal.Frame
import proofs.«156982_j39058432590069_2_alg».proof.Proof.LibGcnSpec
import proofs.«156982_j39058432590069_2_alg».proof.Proof.LibPlainDot
import proofs.«156982_j39058432590069_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section
open scoped BigOperators
open Idealize.ShloMosaic Idealize.ShloMosaic.TcCoe Idealize.ShloMosaic.ValueIdx Idealize.SL.Sem

namespace Cert.KernelIdeal.KVal
open Cert.KernelIdeal Cert.KernelIdeal.Gen Cert.Gcn

/-- The offsets `(0, 0)` are zero on both axes. -/
theorem product_zero_offsets : (![0, 0] : Fin 2 → Nat) = fun _ => 0 := funext fun a => by fin_cases a <;> rfl

/-- THE BODY AT AN ENTRY. The narrowing of both factors is the identity, the product into the zero accumulator is
    the sum over the 128 contracted columns, the cast to the same shape is the identity and the column is broadcast
    over the 128 columns: entry `(p, q)` of the stored block is `(∑ k, x0(p, k) * x1(k, q)) * x2(p, 0)`. -/
theorem product_payload_apply (x0 : FVec Ideal S5000x128 .f32) (x1 : FVec Ideal S128x128 .f32)
    (x2 : FVec Ideal S5000x1 .f32) (p : Fin 5000) (q : Fin 128) :
    k0_pay1 (F := Ideal) x0 x1 x2 (ix2 p q)
      = (∑ k : Fin 128, x0 (ix2 p k) * x1 (ix2 k q)) * x2 (ix2 p (0 : Fin 1)) := by
  unfold k0_pay1
  rw [shapeCast_self]
  show FloatOps.matmul (F := Ideal) dot_S5000x128_S128x128_S5000x128_1_0_0_1_n_n none (truncf .bf16 x0 bitsLt_bf16_f32)
        (truncf .bf16 x1 bitsLt_bf16_f32) (constant (F := Ideal) S5000x128 .f32 0x00000000#32) (ix2 p q)
      * broadcastTo S5000x128 x2 broadcasts_S5000x1_S5000x128 (ix2 p q) = _
  rw [Keepdims.broadcastTo_a1_ab_apply]
  refine congrArg (· * x2 (ix2 p (0 : Fin 1))) ?_
  -- the dimension numbers are those of a plain `5000×128` by `128×128` product
  exact (PlainDot.matmul_zero_apply dot_S5000x128_S128x128_S5000x128_1_0_0_1_n_n_wf none
    (truncf .bf16 x0 bitsLt_bf16_f32) (truncf .bf16 x1 bitsLt_bf16_f32) p q).trans
      (Finset.sum_congr rfl fun k _ => rfl)

/-- The same at any index `j` of the block: row `j 0` of the left factor against column `j 1` of the right one,
    scaled by the column's entry at row `j 0`. -/
theorem product_payload_idx (x0 : FVec Ideal S5000x128 .f32) (x1 : FVec Ideal S128x128 .f32)
    (x2 : FVec Ideal S5000x1 .f32) (j : S5000x128.Idx) :
    k0_pay1 (F := Ideal) x0 x1 x2 j
      = (∑ k : Fin 128, x0 (ix2 (⟨(j 0).val, idx2_lt0 j⟩ : Fin 5000) k) * x1 (ix2 k (⟨(j 1).val, idx2_lt1 j⟩ : Fin 128)))
          * x2 (ix2 (⟨(j 0).val, idx2_lt0 j⟩ : Fin 5000) (0 : Fin 1)) := by
  obtain ⟨p, q, rfl⟩ : ∃ (p : Fin 5000) (q : Fin 128), j = ix2 p q := ⟨j 0, j 1, eq_ix2 j⟩
  exact product_payload_apply x0 x1 x2 p q

/-- The four index maps over the 20 grid points: at point `t` the row-blocked windows are at block `t` along the
    rows and block `0` along the columns; the `[128, 128]` matrix has its one block at `(0, 0)`. -/
theorem product_block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- THE WHOLE-ARRAY FUNCTION: the `[100000, 128]` array times the `[128, 128]` matrix, each row scaled by the
    column's entry of that row. -/
def productG (x : S100000x128.Idx → EReal) (w : S128x128.Idx → EReal) (d : S100000x1.Idx → EReal) :
    S100000x128.Idx → EReal :=
  fun i =>
    (∑ k : Fin 128, x (ix2 (⟨(i 0).val, idx2_lt0 i⟩ : Fin 100000) k) * w (ix2 k (⟨(i 1).val, idx2_lt1 i⟩ : Fin 128)))
      * d (ix2 (⟨(i 0).val, idx2_lt0 i⟩ : Fin 100000) (0 : Fin 1))

variable (V : (c : Dev nD) → (b : Ref sig .tc) → Buf (Elt Ideal) ((c : Thread nD τ).loc b))

/-- WHAT POINT `t` WRITES BACK is block `t` of `productG` of the three arrays as the region finds them. Entry `j`
    of a block sits in its array at row `5000 * (block index) + j 0` and column `(block index) * width + j 1`; the
    left factor's, the column's and the output's blocks have the same row index, and the right factor's block is
    its whole array. -/
theorem product_flushed (c : Dev nD) (t : Fin cfg0.N) :
    (dat0 (F := Ideal) V c).flushed 3 t
      = ((cfg0.win 3).blk t).view.read (Elt Ideal) (productG (V c main_arg0) (V c main_arg2) (V c main_v11)) := by
  show (cfg0.win 3).cut (grid0.coords t) ((dat0 (F := Ideal) V c).after 3 t) = _
  rw [after0_3]
  unfold out0_3
  rw [View.canon_unit_zero product_zero_offsets]
  simp only [View.ld_unit_zero (S := S5000x128) product_zero_offsets,
    View.ld_unit_zero (S := S128x128) product_zero_offsets, View.ld_unit_zero (S := S5000x1) product_zero_offsets]
  funext j
  refine (product_payload_idx (iblk0 V c 0 t) (iblk0 V c 1 t) (iblk0 V c 2 t)
    ((win0 3).xinj (grid0.coords t) j)).trans ?_
  obtain ⟨e00, e01, e10, e11, e20, e21, e30, e31⟩ := product_block_index t
  have hj0 : (j 0).val < 5000 := (j 0).isLt
  have hj1 : (j 1).val < 128 := (j 1).isLt
  -- a row of the left factor's block is the row of the array at the same height as the output block's
  have h0 : ∀ k : Fin 128, ((cfg0.win 0).blk t).view.emb (ix2 (⟨(((win0 3).xinj (grid0.coords t) j) 0).val, idx2_lt0 (n0 := 5000) (n1 := 128) ((win0 3).xinj (grid0.coords t) j)⟩ : Fin 5000) k)
      = ix2 (⟨((((cfg0.win 3).blk t).view.emb j) 0).val, idx2_lt0 (n0 := 100000) (n1 := 128) (((cfg0.win 3).blk t).view.emb j)⟩ : Fin 100000) k := by
    intro k
    funext a; apply Fin.ext
    match a with
    | ⟨0, _⟩ =>
      show win0_0.index t (0 : Fin 2) * 5000 + 1 * (j 0).val = win0_3.index t (0 : Fin 2) * 5000 + 1 * (j 0).val
      omega
    | ⟨1, _⟩ =>
      show win0_0.index t (1 : Fin 2) * 128 + 1 * k.val = k.val
      omega
  -- the right factor's one block is its whole array; the output block spans all 128 columns
  have h1 : ∀ k : Fin 128, ((cfg0.win 1).blk t).view.emb (ix2 k (⟨(((win0 3).xinj (grid0.coords t) j) 1).val, idx2_lt1 (n0 := 5000) (n1 := 128) ((win0 3).xinj (grid0.coords t) j)⟩ : Fin 128))
      = ix2 k (⟨((((cfg0.win 3).blk t).view.emb j) 1).val, idx2_lt1 (n0 := 100000) (n1 := 128) (((cfg0.win 3).blk t).view.emb j)⟩ : Fin 128) := by
    intro k
    funext a; apply Fin.ext
    match a with
    | ⟨0, _⟩ =>
      show win0_1.index t (0 : Fin 2) * 128 + 1 * k.val = k.val
      omega
    | ⟨1, _⟩ =>
      show win0_1.index t (1 : Fin 2) * 128 + 1 * (j 1).val = win0_3.index t (1 : Fin 2) * 128 + 1 * (j 1).val
      omega
  -- the column's block starts at the same row; its one column is column 0
  have h2 : ((cfg0.win 2).blk t).view.emb (ix2 (⟨(((win0 3).xinj (grid0.coords t) j) 0).val, idx2_lt0 (n0 := 5000) (n1 := 128) ((win0 3).xinj (grid0.coords t) j)⟩ : Fin 5000) (0 : Fin 1))
      = ix2 (⟨((((cfg0.win 3).blk t).view.emb j) 0).val, idx2_lt0 (n0 := 100000) (n1 := 128) (((cfg0.win 3).blk t).view.emb j)⟩ : Fin 100000) (0 : Fin 1) := by
    funext a; apply Fin.ext
    match a with
    | ⟨0, _⟩ =>
      show win0_2.index t (0 : Fin 2) * 5000 + 1 * (j 0).val = win0_3.index t (0 : Fin 2) * 5000 + 1 * (j 0).val
      omega
    | ⟨1, _⟩ =>
      show win0_2.index t (1 : Fin 2) * 1 + 1 * 0 = 0
      omega
  have r0 : ∀ k : Fin 128, iblk0 V c 0 t (ix2 (⟨(((win0 3).xinj (grid0.coords t) j) 0).val, idx2_lt0 (n0 := 5000) (n1 := 128) ((win0 3).xinj (grid0.coords t) j)⟩ : Fin 5000) k)
      = V c main_arg0 (ix2 (⟨((((cfg0.win 3).blk t).view.emb j) 0).val, idx2_lt0 (n0 := 100000) (n1 := 128) (((cfg0.win 3).blk t).view.emb j)⟩ : Fin 100000) k) :=
    fun k => congrArg (V c main_arg0) (h0 k)
  have r1 : ∀ k : Fin 128, iblk0 V c 1 t (ix2 k (⟨(((win0 3).xinj (grid0.coords t) j) 1).val, idx2_lt1 (n0 := 5000) (n1 := 128) ((win0 3).xinj (grid0.coords t) j)⟩ : Fin 128))
      = V c main_arg2 (ix2 k (⟨((((cfg0.win 3).blk t).view.emb j) 1).val, idx2_lt1 (n0 := 100000) (n1 := 128) (((cfg0.win 3).blk t).view.emb j)⟩ : Fin 128)) :=
    fun k => congrArg (V c main_arg2) (h1 k)
  have r2 : iblk0 V c 2 t (ix2 (⟨(((win0 3).xinj (grid0.coords t) j) 0).val, idx2_lt0 (n0 := 5000) (n1 := 128) ((win0 3).xinj (grid0.coords t) j)⟩ : Fin 5000) (0 : Fin 1))
      = V c main_v11 (ix2 (⟨((((cfg0.win 3).blk t).view.emb j) 0).val, idx2_lt0 (n0 := 100000) (n1 := 128) (((cfg0.win 3).blk t).view.emb j)⟩ : Fin 100000) (0 : Fin 1)) :=
    congrArg (V c main_v11) h2
  simp only [r0, r1, r2]
  rfl

/-- An index of the output array is in point `t`'s block iff each coordinate is in the block's range on its axis. -/
theorem product_mem_block (t : Fin cfg0.N) (i : S100000x128.Idx) :
    i ∈ ((cfg0.win 3).blk t).view.set
      ↔ ∀ a : Fin 2, win0_3.index t a * S5000x128.size a ≤ (i a).val
          ∧ (i a).val < win0_3.index t a * S5000x128.size a + S5000x128.size a := by
  show i ∈ ((View.whole main_v12).slice (win0_3.rect t)).set ↔ _
  rw [View.set_slice_whole, Rect.mem_set_unit]
  exact Iff.rfl

/-- THE BLOCKS TILE THE ARRAY: row `r` lies in the block of point `r / 5000`, and every column in block 0. -/
theorem product_blocks_cover (i : S100000x128.Idx) :
    ∃ t : Fin cfg0.N, (cfg0.win 3).flush t = true ∧ i ∈ ((cfg0.win 3).blk t).view.set := by
  have hi0 : (i 0).val < 100000 := idx2_lt0 i
  have hi1 : (i 1).val < 128 := idx2_lt1 i
  have hN : cfg0.N = 20 := N_0
  let t : Fin cfg0.N := ⟨(i 0).val / 5000, by rw [hN]; omega⟩
  obtain ⟨-, -, -, -, -, -, e30, e31⟩ := product_block_index t
  have e30' : win0_3.index t (0 : Fin 2) = (i 0).val / 5000 := e30
  refine ⟨t, flush0_3 t, ?_⟩
  rw [product_mem_block]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- THE ARRAY after the region: `productG` of the three arrays as the region finds them. -/
theorem product_final (c : Dev nD) :
    (dat0 (F := Ideal) V c).arrAt 3 cfg0.N = productG (V c main_arg0) (V c main_arg2) (V c main_v11) :=
  (dat0 (F := Ideal) V c).arrAt_eq_of_cover 3 _ (fun t _ => product_flushed V c t) product_blocks_cover

/-- The same, read at coordinates: `out(i, k) = (∑ j, x(i, j) * w(j, k)) * d(i, 0)`. -/
theorem region0_final (c : Dev nD) (i : Fin 100000) (k : Fin 128) :
    rd2 100000 128 ((dat0 (F := Ideal) V c).arrAt 3 cfg0.N) i k
      = (∑ j : Fin 128, rd2 100000 128 (V c main_arg0) i j * rd2 128 128 (V c main_arg2) j k)
          * rd2 100000 1 (V c main_v11) i 0 := by
  show (dat0 (F := Ideal) V c).arrAt 3 cfg0.N (ix2 i k) = _
  rw [product_final]
  rfl

end Cert.KernelIdeal.KVal

end
-- ==== Proof.KRegion1.lean ====
/-
  The second region's result array, read at coordinates.

  The region runs over 20 grid points. At point t each row-blocked window holds rows 5000 t … 5000 t + 4999 of its
  array, and the weight window holds the whole 128×64 weight array. At row p and column q of the output block the body
  stores (∑ j, max ((x(p, j) + y(p, j)) · d(p), 0) · W(j, q)) · d(p): the two feature blocks added, scaled by the
  row's factor, clipped below at zero, multiplied into the weights as an exact sum (the change of float format before
  the product is the identity on extended reals, and the accumulator starts at zero), and scaled by the row's factor
  once more. So what point t writes back is block t of ONE function of the arrays the region finds; the 20 blocks
  cover every row (row r is in the block of point r / 5000); hence the array after the region is that function.
-/
import proofs.«156982_j39058432590069_2_alg».proof.Proof.Gen.KernelIdeal.Frame
import proofs.«156982_j39058432590069_2_alg».proof.Proof.LibGcnSpec
import proofs.«156982_j39058432590069_2_alg».proof.Proof.LibPlainDot
import proofs.«156982_j39058432590069_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section
open scoped BigOperators
open Idealize.ShloMosaic Idealize.ShloMosaic.TcCoe Idealize.ShloMosaic.ValueIdx Idealize.SL.Sem

namespace Cert.KernelIdeal.KVal
open Cert.KernelIdeal Cert.KernelIdeal.Gen Cert.Gcn

namespace Region1

/-- The hidden activation at row p, column j of a block: the two feature blocks added, scaled by the row's factor,
    clipped below at zero. -/
theorem hidden_apply (v0 v2 : Vec Ideal S5000x128 .f32) (v5 : Vec Ideal S5000x1 .f32) (p : Fin 5000) (j : Fin 128) :
    (maximumf (mulf (addf (shapeCast S5000x128 v0 shapeCasts_S5000x128_S5000x128) (shapeCast S5000x128 v2 shapeCasts_S5000x128_S5000x128))
        (broadcastTo S5000x128 (shapeCast S5000x1 v5 shapeCasts_S5000x1_S5000x1) broadcasts_S5000x1_S5000x128))
      (broadcast S5000x128 (Scalar.ofBits (F := Ideal) .f32 0x00000000#32)) : FVec Ideal S5000x128 .f32) (ix2 p j)
      = max ((v0 (ix2 p j) + v2 (ix2 p j)) * v5 (ix2 p 0)) 0 := by
  rw [shapeCast_self, shapeCast_self, shapeCast_self]
  show max ((v0 (ix2 p j) + v2 (ix2 p j)) * broadcastTo S5000x128 v5 broadcasts_S5000x1_S5000x128 (ix2 p j)) (Ideal.ofBits .f32 0x00000000#32) = _
  rw [Keepdims.broadcastTo_a1_ab_apply, Ideal.ofBits_zero_f32]

/-- The body's stored value at row p, column q of a block: the hidden activations of row p against column q of the
    weights, scaled by the row's factor. -/
theorem payload_apply (v0 v2 : Vec Ideal S5000x128 .f32) (v5 v15 : Vec Ideal S5000x1 .f32) (v12 : Vec Ideal S128x64 .f32)
    (p : Fin 5000) (q : Fin 64) :
    k1_pay1 (F := Ideal) v0 v2 v5 v12 v15 (ix2 p q)
      = (∑ j : Fin 128, max ((v0 (ix2 p j) + v2 (ix2 p j)) * v5 (ix2 p 0)) 0 * v12 (ix2 j q)) * v15 (ix2 p 0) := by
  unfold k1_pay1
  refine (mulf_apply _ _ _).trans ?_
  refine congrArg₂ (· * ·) ?_ ?_
  · refine (PlainDot.matmul_zero_apply (M := 5000) (K := 128) (N := 64)
      dot_S5000x128_S128x64_S5000x64_1_0_0_1_n_n_wf none _ _ p q).trans ?_
    refine Finset.sum_congr rfl fun j _ => ?_
    exact congrArg₂ (· * ·) (hidden_apply v0 v2 v5 p j) rfl
  · rw [shapeCast_self]
    exact Keepdims.broadcastTo_a1_ab_apply _ _ p q

/-! ## The layer as one function of the arrays the region finds -/

/-- The region's result as ONE function of the four arrays it reads: entry (r, k) is the hidden activations of row r
    — the two feature arrays added, scaled by the row's factor, clipped below at zero — against column k of the
    weights, scaled once more by the row's factor. -/
def layer (a22 a12 : S100000x128.Idx → EReal) (a11 : S100000x1.Idx → EReal) (w : S128x64.Idx → EReal) :
    S100000x64.Idx → EReal := fun i =>
  (∑ j : Fin 128, max ((a22 (ix2 (i 0 : Fin 100000) j) + a12 (ix2 (i 0 : Fin 100000) j)) * a11 (ix2 (i 0 : Fin 100000) 0)) 0
      * w (ix2 j (i 1 : Fin 64))) * a11 (ix2 (i 0 : Fin 100000) 0)

/-- One entry of a block's stored value is the layer's entry at array row r, once row p of each row-blocked input block
    is row r of its array and the weight block is the weight array. -/
theorem point_eq (x0 x1 : Vec Ideal S5000x128 .f32) (x2 : Vec Ideal S5000x1 .f32) (x3 : Vec Ideal S128x64 .f32)
    (a22 a12 : S100000x128.Idx → EReal) (a11 : S100000x1.Idx → EReal) (w : S128x64.Idx → EReal)
    (p : Fin 5000) (q : Fin 64) (r : Fin 100000)
    (h0 : ∀ j : Fin 128, x0 (ix2 p j) = a22 (ix2 r j)) (h1 : ∀ j : Fin 128, x1 (ix2 p j) = a12 (ix2 r j))
    (h2 : x2 (ix2 p 0) = a11 (ix2 r 0)) (h3 : ∀ j : Fin 128, x3 (ix2 j q) = w (ix2 j q)) :
    k1_pay1 (F := Ideal) x0 x1 x2 x3 x2 (ix2 p q) = layer a22 a12 a11 w (ix2 r q) := by
  rw [payload_apply]
  show _ = (∑ j : Fin 128, max ((a22 (ix2 r j) + a12 (ix2 r j)) * a11 (ix2 r 0)) 0 * w (ix2 j q)) * a11 (ix2 r 0)
  rw [h2]
  refine congrArg (· * _) (Finset.sum_congr rfl fun j _ => ?_)
  rw [h0, h1, h3]

/-! ## The blocks -/

variable (V : (c : Dev nD) → (b : Ref sig .tc) → Buf (Elt Ideal) ((c : Thread nD τ).loc b))

theorem zero_offsets : (![0, 0] : Fin 2 → Nat) = fun _ => 0 := funext fun a => by fin_cases a <;> rfl

/-- The index maps, decided over the 20 grid points: every row-blocked window is at block (t, 0) at point t, the
    weight window at block (0, 0). -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row p of the first feature window's block at point t is row 5000 t + p of its array. -/
theorem block0_apply (c : Dev nD) (t : Fin cfg1.N) (p : Fin 5000) (j : Fin 128) (r : Fin 100000)
    (hr : r.val = t.val * 5000 + p.val) :
    iblk1 V c 0 t (ix2 p j) = V c main_v22 (ix2 r j) := by
  obtain ⟨e0, e1, -⟩ := index_facts t
  unfold iblk1
  rw [View.read_apply]
  show V c main_v22 _ = V c main_v22 _
  refine congrArg (V c main_v22) (funext fun a => Fin.ext ?_)
  match a with
  | ⟨0, _⟩ => show win1_0.index t (0 : Fin 2) * 5000 + 1 * p.val = r.val; omega
  | ⟨1, _⟩ => show win1_0.index t (1 : Fin 2) * 128 + 1 * j.val = j.val; omega

/-- Row p of the second feature window's block at point t is row 5000 t + p of its array. -/
theorem block1_apply (c : Dev nD) (t : Fin cfg1.N) (p : Fin 5000) (j : Fin 128) (r : Fin 100000)
    (hr : r.val = t.val * 5000 + p.val) :
    iblk1 V c 1 t (ix2 p j) = V c main_v12 (ix2 r j) := by
  obtain ⟨-, -, e0, e1, -⟩ := index_facts t
  unfold iblk1
  rw [View.read_apply]
  show V c main_v12 _ = V c main_v12 _
  refine congrArg (V c main_v12) (funext fun a => Fin.ext ?_)
  match a with
  | ⟨0, _⟩ => show win1_1.index t (0 : Fin 2) * 5000 + 1 * p.val = r.val; omega
  | ⟨1, _⟩ => show win1_1.index t (1 : Fin 2) * 128 + 1 * j.val = j.val; omega

/-- Row p of the factor column's block at point t is row 5000 t + p of the column. -/
theorem block2_apply (c : Dev nD) (t : Fin cfg1.N) (p : Fin 5000) (u : Fin 1) (r : Fin 100000)
    (hr : r.val = t.val * 5000 + p.val) :
    iblk1 V c 2 t (ix2 p u) = V c main_v11 (ix2 r u) := by
  obtain ⟨-, -, -, -, e0, e1, -⟩ := index_facts t
  unfold iblk1
  rw [View.read_apply]
  show V c main_v11 _ = V c main_v11 _
  refine congrArg (V c main_v11) (funext fun a => Fin.ext ?_)
  match a with
  | ⟨0, _⟩ => show win1_2.index t (0 : Fin 2) * 5000 + 1 * p.val = r.val; omega
  | ⟨1, _⟩ => show win1_2.index t (1 : Fin 2) * 1 + 1 * u.val = u.val; omega

/-- The weight window's one block is the weight array, at every point. -/
theorem block3_apply (c : Dev nD) (t : Fin cfg1.N) (j : Fin 128) (q : Fin 64) :
    iblk1 V c 3 t (ix2 j q) = V c main_arg3 (ix2 j q) := by
  obtain ⟨-, -, -, -, -, -, e0, e1, -⟩ := index_facts t
  unfold iblk1
  rw [View.read_apply]
  show V c main_arg3 _ = V c main_arg3 _
  refine congrArg (V c main_arg3) (funext fun a => Fin.ext ?_)
  match a with
  | ⟨0, _⟩ => show win1_3.index t (0 : Fin 2) * 128 + 1 * j.val = j.val; omega
  | ⟨1, _⟩ => show win1_3.index t (1 : Fin 2) * 64 + 1 * q.val = q.val; omega

/-! ## What a point writes back, the cover, the final array -/

/-- What point t writes back is block t of the layer of the arrays the region finds. -/
theorem flushed_eq (c : Dev nD) (t : Fin cfg1.N) :
    (dat1 V c).flushed 4 t
      = ((cfg1.win 4).blk t).view.read (Elt Ideal) (layer (V c main_v22) (V c main_v12) (V c main_v11) (V c main_arg3)) := by
  show (cfg1.win 4).cut (grid1.coords t) ((dat1 V c).after 4 t) = _
  rw [after1_4]
  unfold out1_4
  rw [View.canon_unit_zero zero_offsets]
  simp only [View.ld_unit_zero (S := S5000x128) zero_offsets, View.ld_unit_zero (S := S5000x1) zero_offsets,
    View.ld_unit_zero (S := S128x64) zero_offsets]
  obtain ⟨-, -, -, -, -, -, -, -, e0, e1⟩ := index_facts t
  have ht : t.val < 20 := lt_of_lt_of_eq t.isLt N_1
  funext y
  have hp : (y 0).val < 5000 := (y 0).isLt
  have hq : (y 1).val < 64 := (y 1).isLt
  have hy : (cfg1.win 4).xinj (grid1.coords t) y = ix2 (⟨(y 0).val, hp⟩ : Fin 5000) (⟨(y 1).val, hq⟩ : Fin 64) := by
    funext a; match a with | ⟨0, _⟩ => rfl | ⟨1, _⟩ => rfl
  have hemb : ((cfg1.win 4).blk t).view.emb y
      = ix2 (⟨t.val * 5000 + (y 0).val, by omega⟩ : Fin 100000) (⟨(y 1).val, hq⟩ : Fin 64) := by
    funext a; apply Fin.ext
    match a with
    | ⟨0, _⟩ => show win1_4.index t (0 : Fin 2) * 5000 + 1 * (y 0).val = t.val * 5000 + (y 0).val; omega
    | ⟨1, _⟩ => show win1_4.index t (1 : Fin 2) * 64 + 1 * (y 1).val = (y 1).val; omega
  rw [View.read_apply]
  show k1_pay1 (F := Ideal) (iblk1 V c 0 t) (iblk1 V c 1 t) (iblk1 V c 2 t) (iblk1 V c 3 t) (iblk1 V c 2 t)
      ((cfg1.win 4).xinj (grid1.coords t) y)
    = layer (V c main_v22) (V c main_v12) (V c main_v11) (V c main_arg3) (((cfg1.win 4).blk t).view.emb y)
  rw [hy, hemb]
  exact point_eq (iblk1 V c 0 t) (iblk1 V c 1 t) (iblk1 V c 2 t) (iblk1 V c 3 t)
    (V c main_v22) (V c main_v12) (V c main_v11) (V c main_arg3)
    ⟨(y 0).val, hp⟩ ⟨(y 1).val, hq⟩ ⟨t.val * 5000 + (y 0).val, by omega⟩
    (fun j => block0_apply V c t ⟨(y 0).val, hp⟩ j ⟨t.val * 5000 + (y 0).val, by omega⟩ rfl)
    (fun j => block1_apply V c t ⟨(y 0).val, hp⟩ j ⟨t.val * 5000 + (y 0).val, by omega⟩ rfl)
    (block2_apply V c t ⟨(y 0).val, hp⟩ 0 ⟨t.val * 5000 + (y 0).val, by omega⟩ rfl)
    (fun j => block3_apply V c t j ⟨(y 1).val, hq⟩)

/-- An index of the result array is in point t's block iff each coordinate is in the block's range on its axis. -/
theorem mem_blk (t : Fin cfg1.N) (i : S100000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v23).slice (win1_4.rect t)).set ↔ _
  rw [View.set_slice_whole, Rect.mem_set_unit]
  exact Iff.rfl

/-- Every row r lies in the block of the point r / 5000, and every point writes back. -/
theorem covered (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  refine ⟨⟨(i 0).val / 5000, lt_of_lt_of_eq (by omega : (i 0).val / 5000 < 20) N_1.symm⟩, flush1_4 _, ?_⟩
  obtain ⟨-, -, -, -, -, -, -, -, e0, e1⟩ :=
    index_facts ⟨(i 0).val / 5000, lt_of_lt_of_eq (by omega : (i 0).val / 5000 < 20) N_1.symm⟩
  have q0 : win1_4.index ⟨(i 0).val / 5000, lt_of_lt_of_eq (by omega : (i 0).val / 5000 < 20) N_1.symm⟩ (0 : Fin 2)
      = (i 0).val / 5000 := e0
  rw [mem_blk]
  intro a
  match a with
  | ⟨0, _⟩ =>
    show win1_4.index _ (0 : Fin 2) * 5000 ≤ (i 0).val ∧ (i 0).val < win1_4.index _ (0 : Fin 2) * 5000 + 5000
    omega
  | ⟨1, _⟩ =>
    show win1_4.index _ (1 : Fin 2) * 64 ≤ (i 1).val ∧ (i 1).val < win1_4.index _ (1 : Fin 2) * 64 + 64
    omega

/-- The result array after the region: the layer of the arrays the region finds. -/
theorem final_array (c : Dev nD) :
    (dat1 V c).arrAt 4 cfg1.N = layer (V c main_v22) (V c main_v12) (V c main_v11) (V c main_arg3) :=
  (dat1 V c).arrAt_eq_of_cover 4 (layer (V c main_v22) (V c main_v12) (V c main_v11) (V c main_arg3))
    (fun t _ => flushed_eq V c t) covered

end Region1

open Region1

variable (V : (c : Dev nD) → (b : Ref sig .tc) → Buf (Elt Ideal) ((c : Thread nD τ).loc b))

/-- The result array read at coordinates. -/
theorem region1_final (c : Dev nD) (i : Fin 100000) (k : Fin 64) :
    rd2 100000 64 ((dat1 (F := Ideal) V c).arrAt 4 cfg1.N) i k
      = (∑ j : Fin 128,
            max ((rd2 100000 128 (V c main_v22) i j + rd2 100000 128 (V c main_v12) i j) * rd2 100000 1 (V c main_v11) i 0) 0
              * rd2 128 64 (V c main_arg3) j k)
          * rd2 100000 1 (V c main_v11) i 0 := by
  show (dat1 V c).arrAt 4 cfg1.N (ix2 i k) = _
  rw [final_array]
  rfl

end Cert.KernelIdeal.KVal
end
-- ==== Proof.KRegion2.lean ====
/-
  The third region's output array, read at coordinates.

  The region walks the 100000 rows in 20 blocks of 5000. At block `t` its body reads rows `5000 t … 5000 t + 4999`
  of two `[100000, 64]` arrays `a`, `b` and of a `[100000, 1]` column `d`, and stores, at entry `(p, q)` of the
  block, `(a + b)(p, q) * d(p, 0)`: a pointwise sum scaled row by row. Every block is therefore the restriction of
  ONE function of the whole arrays,
      out(i, k) = (a(i, k) + b(i, k)) * d(i, 0),
  and since the 20 blocks tile the rows (row `r` lies in block `r / 5000`), the array the region leaves is that
  function.
-/
import proofs.«156982_j39058432590069_2_alg».proof.Proof.Gen.KernelIdeal.Frame
import proofs.«156982_j39058432590069_2_alg».proof.Proof.LibGcnSpec
import proofs.«156982_j39058432590069_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section
open scoped BigOperators
open Idealize.ShloMosaic Idealize.ShloMosaic.TcCoe Idealize.ShloMosaic.ValueIdx Idealize.SL.Sem

namespace Cert.KernelIdeal.KVal
open Cert.KernelIdeal Cert.KernelIdeal.Gen Cert.Gcn

/-- The offsets `(0, 0)` are zero on both axes. -/
theorem combine_zero_offsets : (![0, 0] : Fin 2 → Nat) = fun _ => 0 := funext fun a => by fin_cases a <;> rfl

/-- THE BODY AT AN ENTRY. With the casts to the same shape the identity and the column broadcast over the 64
    columns, entry `(p, q)` of the stored block is `(x0(p, q) + x1(p, q)) * x2(p, 0)`. -/
theorem combine_payload_apply (x0 x1 : Vec Ideal S5000x64 .f32) (x2 : Vec Ideal S5000x1 .f32) (p : Fin 5000)
    (q : Fin 64) :
    k2_pay1 (F := Ideal) x0 x1 x2 (ix2 p q) = (x0 (ix2 p q) + x1 (ix2 p q)) * x2 (ix2 p (0 : Fin 1)) := by
  unfold k2_pay1
  rw [shapeCast_self, shapeCast_self, shapeCast_self]
  show (x0 (ix2 p q) + x1 (ix2 p q)) * broadcastTo S5000x64 x2 broadcasts_S5000x1_S5000x64 (ix2 p q) = _
  rw [Keepdims.broadcastTo_a1_ab_apply]

/-- The same at any index `j` of the block: the column is read at `j`'s row. -/
theorem combine_payload_idx (x0 x1 : Vec Ideal S5000x64 .f32) (x2 : Vec Ideal S5000x1 .f32) (j : S5000x64.Idx) :
    k2_pay1 (F := Ideal) x0 x1 x2 j
      = (x0 j + x1 j) * x2 (ix2 (⟨(j 0).val, idx2_lt0 j⟩ : Fin 5000) (0 : Fin 1)) := by
  obtain ⟨p, q, rfl⟩ : ∃ (p : Fin 5000) (q : Fin 64), j = ix2 p q := ⟨j 0, j 1, eq_ix2 j⟩
  exact combine_payload_apply x0 x1 x2 p q

/-- The four index maps over the 20 grid points: at point `t` every window's block is block `t` along the rows and
    block `0` along the columns. -/
theorem combine_block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- THE WHOLE-ARRAY FUNCTION: the sum of the two `[100000, 64]` arrays, each row scaled by the column's entry of
    that row. -/
def combineG (a0 a1 : S100000x64.Idx → EReal) (d : S100000x1.Idx → EReal) : S100000x64.Idx → EReal :=
  fun i => (a0 i + a1 i) * d (ix2 (⟨(i 0).val, idx2_lt0 i⟩ : Fin 100000) (0 : Fin 1))

variable (V : (c : Dev nD) → (b : Ref sig .tc) → Buf (Elt Ideal) ((c : Thread nD τ).loc b))

/-- WHAT POINT `t` WRITES BACK is block `t` of `combineG` of the three arrays as the region finds them. Entry `j`
    of a block sits in its array at row `5000 * (block index) + j 0` and column `(block index) * width + j 1`; the
    three input blocks and the output block have the same block indices, so they read the same rows. -/
theorem combine_flushed (c : Dev nD) (t : Fin cfg2.N) :
    (dat2 (F := Ideal) V c).flushed 3 t
      = ((cfg2.win 3).blk t).view.read (Elt Ideal) (combineG (V c main_v33) (V c main_v23) (V c main_v11)) := by
  show (cfg2.win 3).cut (grid2.coords t) ((dat2 (F := Ideal) V c).after 3 t) = _
  rw [after2_3]
  unfold out2_3
  rw [View.canon_unit_zero combine_zero_offsets]
  simp only [View.ld_unit_zero (S := S5000x64) combine_zero_offsets,
    View.ld_unit_zero (S := S5000x1) combine_zero_offsets]
  funext j
  refine (combine_payload_idx (iblk2 V c 0 t) (iblk2 V c 1 t) (iblk2 V c 2 t)
    ((win2 3).xinj (grid2.coords t) j)).trans ?_
  obtain ⟨e00, e01, e10, e11, e20, e21, e30, e31⟩ := combine_block_index t
  have hj0 : (j 0).val < 5000 := (j 0).isLt
  have hj1 : (j 1).val < 64 := (j 1).isLt
  -- the first summand's block and the output's block sit at the same place
  have h0 : ((cfg2.win 0).blk t).view.emb ((win2 3).xinj (grid2.coords t) j) = ((cfg2.win 3).blk t).view.emb j := by
    funext a; apply Fin.ext
    match a with
    | ⟨0, _⟩ =>
      show win2_0.index t (0 : Fin 2) * 5000 + 1 * (j 0).val = win2_3.index t (0 : Fin 2) * 5000 + 1 * (j 0).val
      omega
    | ⟨1, _⟩ =>
      show win2_0.index t (1 : Fin 2) * 64 + 1 * (j 1).val = win2_3.index t (1 : Fin 2) * 64 + 1 * (j 1).val
      omega
  -- so do the second summand's
  have h1 : ((cfg2.win 1).blk t).view.emb ((win2 3).xinj (grid2.coords t) j) = ((cfg2.win 3).blk t).view.emb j := by
    funext a; apply Fin.ext
    match a with
    | ⟨0, _⟩ =>
      show win2_1.index t (0 : Fin 2) * 5000 + 1 * (j 0).val = win2_3.index t (0 : Fin 2) * 5000 + 1 * (j 0).val
      omega
    | ⟨1, _⟩ =>
      show win2_1.index t (1 : Fin 2) * 64 + 1 * (j 1).val = win2_3.index t (1 : Fin 2) * 64 + 1 * (j 1).val
      omega
  -- the column's block starts at the same row; its one column is column 0
  have h2 : ((cfg2.win 2).blk t).view.emb
        (ix2 (⟨((win2 3).xinj (grid2.coords t) j 0).val,
            idx2_lt0 (n0 := 5000) (n1 := 64) ((win2 3).xinj (grid2.coords t) j)⟩ : Fin 5000) (0 : Fin 1))
      = ix2 (⟨((((cfg2.win 3).blk t).view.emb j) 0).val,
            idx2_lt0 (n0 := 100000) (n1 := 64) (((cfg2.win 3).blk t).view.emb j)⟩ : Fin 100000) (0 : Fin 1) := by
    funext a; apply Fin.ext
    match a with
    | ⟨0, _⟩ =>
      show win2_2.index t (0 : Fin 2) * 5000 + 1 * (j 0).val = win2_3.index t (0 : Fin 2) * 5000 + 1 * (j 0).val
      omega
    | ⟨1, _⟩ =>
      show win2_2.index t (1 : Fin 2) * 1 + 1 * 0 = 0
      omega
  have r0 : iblk2 V c 0 t ((win2 3).xinj (grid2.coords t) j) = V c main_v33 (((cfg2.win 3).blk t).view.emb j) :=
    congrArg (V c main_v33) h0
  have r1 : iblk2 V c 1 t ((win2 3).xinj (grid2.coords t) j) = V c main_v23 (((cfg2.win 3).blk t).view.emb j) :=
    congrArg (V c main_v23) h1
  have r2 : iblk2 V c 2 t
        (ix2 (⟨((win2 3).xinj (grid2.coords t) j 0).val,
            idx2_lt0 (n0 := 5000) (n1 := 64) ((win2 3).xinj (grid2.coords t) j)⟩ : Fin 5000) (0 : Fin 1))
      = V c main_v11
          (ix2 (⟨((((cfg2.win 3).blk t).view.emb j) 0).val,
            idx2_lt0 (n0 := 100000) (n1 := 64) (((cfg2.win 3).blk t).view.emb j)⟩ : Fin 100000) (0 : Fin 1)) :=
    congrArg (V c main_v11) h2
  rw [r0, r1, r2]
  rfl

/-- An index of the output array is in point `t`'s block iff each coordinate is in the block's range on its axis. -/
theorem combine_mem_block (t : Fin cfg2.N) (i : S100000x64.Idx) :
    i ∈ ((cfg2.win 3).blk t).view.set
      ↔ ∀ a : Fin 2, win2_3.index t a * S5000x64.size a ≤ (i a).val
          ∧ (i a).val < win2_3.index t a * S5000x64.size a + S5000x64.size a := by
  show i ∈ ((View.whole main_v34).slice (win2_3.rect t)).set ↔ _
  rw [View.set_slice_whole, Rect.mem_set_unit]
  exact Iff.rfl

/-- THE BLOCKS TILE THE ARRAY: row `r` lies in the block of point `r / 5000`, and every column in block 0. -/
theorem combine_blocks_cover (i : S100000x64.Idx) :
    ∃ t : Fin cfg2.N, (cfg2.win 3).flush t = true ∧ i ∈ ((cfg2.win 3).blk t).view.set := by
  have hi0 : (i 0).val < 100000 := idx2_lt0 i
  have hi1 : (i 1).val < 64 := idx2_lt1 i
  have hN : cfg2.N = 20 := N_2
  let t : Fin cfg2.N := ⟨(i 0).val / 5000, by rw [hN]; omega⟩
  obtain ⟨-, -, -, -, -, -, e30, e31⟩ := combine_block_index t
  have e30' : win2_3.index t (0 : Fin 2) = (i 0).val / 5000 := e30
  refine ⟨t, flush2_3 t, ?_⟩
  rw [combine_mem_block]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 64 ≤ (i 1).val ∧ (i 1).val < win2_3.index t (1 : Fin 2) * 64 + 64
    omega

/-- THE ARRAY after the region: `combineG` of the three arrays as the region finds them. -/
theorem combine_final (c : Dev nD) :
    (dat2 (F := Ideal) V c).arrAt 3 cfg2.N = combineG (V c main_v33) (V c main_v23) (V c main_v11) :=
  (dat2 (F := Ideal) V c).arrAt_eq_of_cover 3 _ (fun t _ => combine_flushed V c t) combine_blocks_cover

/-- The same, read at coordinates: `out(i, k) = (a(i, k) + b(i, k)) * d(i, 0)`. -/
theorem region2_final (c : Dev nD) (i : Fin 100000) (k : Fin 64) :
    rd2 100000 64 ((dat2 (F := Ideal) V c).arrAt 3 cfg2.N) i k
      = (rd2 100000 64 (V c main_v33) i k + rd2 100000 64 (V c main_v23) i k) * rd2 100000 1 (V c main_v11) i 0 := by
  show (dat2 (F := Ideal) V c).arrAt 3 cfg2.N (ix2 i k) = _
  rw [combine_final]
  rfl

end Cert.KernelIdeal.KVal

end
-- ==== Proof.KChain.lean ====
/-
  The contents of the buffers the three regions read, traced through @main of the idealized kernel.

  @main alternates stretches of host operations with the three regions. A buffer written by a host operation holds
  that operation's function of its operands; a region leaves its output array at what its write-backs fold to and
  every other buffer as it found it; no later segment writes a buffer once it is made. So at each region's entry:
  the source and target index columns are those of the edge list (the same operations the reference applies: the
  reference's stages name them), the column of reciprocal square-root degrees is the one made before the first
  region, and each aggregation is the gather / scatter-add of the previous region's output.
-/
import proofs.«156982_j39058432590069_2_alg».proof.Proof.Gen.KernelIdeal.Frame
import proofs.«156982_j39058432590069_2_alg».proof.Proof.Gen.ReferenceIdeal.Read
import proofs.«156982_j39058432590069_2_alg».proof.Proof.LibGcnSpec
import proofs.«156982_j39058432590069_2_alg».proof.Proof.LibGcnOps
import proofs.«156982_j39058432590069_2_alg».proof.Proof.KRegion0
import proofs.«156982_j39058432590069_2_alg».proof.Proof.KRegion1
import proofs.«156982_j39058432590069_2_alg».proof.Proof.KRegion2
import Idealize.ShloMosaic.Lib.ValueIdx
import Idealize.ShloMosaic.Lib.StableHlo.Run

set_option maxRecDepth 16384

noncomputable section

open scoped BigOperators
open Idealize.ShloMosaic Idealize.ShloMosaic.TcCoe Idealize.ShloMosaic.ValueIdx Idealize.SL.Sem Idealize.ShloMosaic.StableHlo

namespace Cert.KernelIdeal.KVal

open Cert.KernelIdeal Cert.KernelIdeal.Gen Cert.Gcn
open Cert.ReferenceIdeal.Read (val_main_v1 val_main_v3 val_main_v7 val_main_v32)

variable (m : (ℓ : Loc nD τ sig) → Buf (Elt Ideal) ℓ) (ρ : Dev nD → PrngReg) (c : Dev nD)

/-! ## Before the first region -/

/-- The source indices as a vector. -/
theorem W1_v1 : W1 m ρ c (Proc.devRef .tc main_v1) = val_main_v1 (F := Ideal) (m ((c : Thread nD τ).loc main_arg1)) := by
  show StableHlo.after hostOps0 (W0 m ρ c) (Proc.devRef .tc main_v1) = _
  after_results
  rfl

/-- The target indices as a vector. -/
theorem W1_v3 : W1 m ρ c (Proc.devRef .tc main_v3) = val_main_v3 (F := Ideal) (m ((c : Thread nD τ).loc main_arg1)) := by
  show StableHlo.after hostOps0 (W0 m ρ c) (Proc.devRef .tc main_v3) = _
  after_results
  rfl

/-- The column of reciprocal square-root degrees: ones scattered into zeros at the target indices, plus one, under the
    reciprocal square root, kept as a column. -/
theorem W1_v11 : W1 m ρ c (Proc.devRef .tc main_v11)
    = broadcastInDim S100000x1 ![0] bcast_S100000_S100000x1_0
        (Host.rsqrt (F := Ideal) (addf (Host.scatterAdd (F := Ideal) (Cert.VecOps.vecScatterDims 100000 1600000 scatter_S100000_S1600000x1_S1600000_n_0_0_1.wf)
            (broadcastInDim S100000 ![] bcast_S_S100000 (constant (F := Ideal) S_ .f32 0x00000000#32))
            (val_main_v7 (F := Ideal) (m ((c : Thread nD τ).loc main_arg1)))
            (broadcastInDim S1600000 ![] bcast_S_S1600000 (constant (F := Ideal) S_ .f32 0x3F800000#32)))
          (broadcastInDim S100000 ![] bcast_S_S100000 (constant (F := Ideal) S_ .f32 0x3F800000#32)))) := by
  show StableHlo.after hostOps0 (W0 m ρ c) (Proc.devRef .tc main_v11) = _
  after_results
  rfl

theorem W1_arg0 : W1 m ρ c (Proc.devRef .tc main_arg0) = m ((c : Thread nD τ).loc main_arg0) :=
  StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W1_arg2 : W1 m ρ c (Proc.devRef .tc main_arg2) = m ((c : Thread nD τ).loc main_arg2) :=
  StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W1_arg3 : W1 m ρ c (Proc.devRef .tc main_arg3) = m ((c : Thread nD τ).loc main_arg3) :=
  StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-! ## Across the first region and the second stretch -/

theorem W2_v1 : W2 m ρ c (Proc.devRef .tc main_v1) = W1 m ρ c (Proc.devRef .tc main_v1) := W2_of_ne m ρ c main_v1 (by decide)
theorem W2_v3 : W2 m ρ c (Proc.devRef .tc main_v3) = W1 m ρ c (Proc.devRef .tc main_v3) := W2_of_ne m ρ c main_v3 (by decide)
theorem W2_arg3 : W2 m ρ c (Proc.devRef .tc main_arg3) = W1 m ρ c (Proc.devRef .tc main_arg3) := W2_of_ne m ρ c main_arg3 (by decide)
/-- The first region reads the degree column and leaves it. -/
theorem W2_v11 : W2 m ρ c (Proc.devRef .tc main_v11) = W1 m ρ c (Proc.devRef .tc main_v11) :=
  (W2_arr m ρ c 2).trans (((dat0 (V1 m ρ) c).arrAt_in 2 rfl _).trans (A_eq0 (V1 m ρ) c 2))
/-- The first region's output array. -/
theorem W2_v12 : W2 m ρ c (Proc.devRef .tc main_v12) = (dat0 (V1 m ρ) c).arrAt 3 cfg0.N := W2_arr m ρ c 3

theorem W3_v1 : W3 m ρ c (Proc.devRef .tc main_v1) = W2 m ρ c (Proc.devRef .tc main_v1) :=
  StableHlo.after_of_forall_not_mem (b := Proc.devRef .tc main_v1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W3_v3 : W3 m ρ c (Proc.devRef .tc main_v3) = W2 m ρ c (Proc.devRef .tc main_v3) :=
  StableHlo.after_of_forall_not_mem (b := Proc.devRef .tc main_v3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W3_v11 : W3 m ρ c (Proc.devRef .tc main_v11) = W2 m ρ c (Proc.devRef .tc main_v11) :=
  StableHlo.after_of_forall_not_mem (b := Proc.devRef .tc main_v11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W3_v12 : W3 m ρ c (Proc.devRef .tc main_v12) = W2 m ρ c (Proc.devRef .tc main_v12) :=
  StableHlo.after_of_forall_not_mem (b := Proc.devRef .tc main_v12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W3_arg3 : W3 m ρ c (Proc.devRef .tc main_arg3) = W2 m ρ c (Proc.devRef .tc main_arg3) :=
  StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- The first aggregation: the first region's rows gathered at the source indices, scatter-added at the targets. -/
theorem W3_v22 : W3 m ρ c (Proc.devRef .tc main_v22)
    = Host.scatterAdd (F := Ideal) (Cert.RowOps.rowScatterDims 100000 1600000 128 scatter_S100000x128_S1600000x1_S1600000x128_1_0_0_1.wf)
        (broadcastInDim S100000x128 ![] bcast_S_S100000x128 (constant (F := Ideal) S_ .f32 0x00000000#32))
        (val_main_v7 (F := Ideal) (m ((c : Thread nD τ).loc main_arg1)))
        (Host.gather (Cert.RowOps.rowGatherDims 100000 1600000 128 gather_S100000x128_S1600000x1_S1600000x128_1_0_n_n_0_1_1128.wf)
          (W2 m ρ c (Proc.devRef .tc main_v12)) (val_main_v32 (F := Ideal) (m ((c : Thread nD τ).loc main_arg1)))) := by
  show StableHlo.after hostOps1 (W2 m ρ c) (Proc.devRef .tc main_v22) = _
  after_results
  rw [W2_v1, W2_v3, W1_v1, W1_v3]
  rfl

/-! ## Across the second region and the third stretch, and the last region -/

theorem W4_v1 : W4 m ρ c (Proc.devRef .tc main_v1) = W3 m ρ c (Proc.devRef .tc main_v1) := W4_of_ne m ρ c main_v1 (by decide)
theorem W4_v3 : W4 m ρ c (Proc.devRef .tc main_v3) = W3 m ρ c (Proc.devRef .tc main_v3) := W4_of_ne m ρ c main_v3 (by decide)
/-- The second region reads the degree column and leaves it. -/
theorem W4_v11 : W4 m ρ c (Proc.devRef .tc main_v11) = W3 m ρ c (Proc.devRef .tc main_v11) :=
  (W4_arr m ρ c 2).trans (((dat1 (V3 m ρ) c).arrAt_in 2 rfl _).trans (A_eq1 (V3 m ρ) c 2))
/-- The second region's output array. -/
theorem W4_v23 : W4 m ρ c (Proc.devRef .tc main_v23) = (dat1 (V3 m ρ) c).arrAt 4 cfg1.N := W4_arr m ρ c 4

theorem W5_v11 : W5 m ρ c (Proc.devRef .tc main_v11) = W4 m ρ c (Proc.devRef .tc main_v11) :=
  StableHlo.after_of_forall_not_mem (b := Proc.devRef .tc main_v11) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W5_v23 : W5 m ρ c (Proc.devRef .tc main_v23) = W4 m ρ c (Proc.devRef .tc main_v23) :=
  StableHlo.after_of_forall_not_mem (b := Proc.devRef .tc main_v23) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- The second aggregation: the second region's rows gathered at the source indices, scatter-added at the targets. -/
theorem W5_v33 : W5 m ρ c (Proc.devRef .tc main_v33)
    = Host.scatterAdd (F := Ideal) (Cert.RowOps.rowScatterDims 100000 1600000 64 scatter_S100000x64_S1600000x1_S1600000x64_1_0_0_1.wf)
        (broadcastInDim S100000x64 ![] bcast_S_S100000x64 (constant (F := Ideal) S_ .f32 0x00000000#32))
        (val_main_v7 (F := Ideal) (m ((c : Thread nD τ).loc main_arg1)))
        (Host.gather (Cert.RowOps.rowGatherDims 100000 1600000 64 gather_S100000x64_S1600000x1_S1600000x64_1_0_n_n_0_1_164.wf)
          (W4 m ρ c (Proc.devRef .tc main_v23)) (val_main_v32 (F := Ideal) (m ((c : Thread nD τ).loc main_arg1)))) := by
  show StableHlo.after hostOps2 (W4 m ρ c) (Proc.devRef .tc main_v33) = _
  after_results
  rw [W4_v1, W4_v3, W3_v1, W3_v3, W2_v1, W2_v3, W1_v1, W1_v3]
  rfl

/-- The result buffer: the last region's output array. -/
theorem W6_v34 : W6 m ρ c (Proc.devRef .tc main_v34) = (dat2 (V5 m ρ) c).arrAt 3 cfg2.N := W6_arr m ρ c 3

/-! ## The arrays at coordinates -/

theorem hN : 0 < 100000 := by norm_num

/-- A vector kept as a column reads, at `(i, 0)`, the vector at `i`. -/
theorem vecColumn_apply {N : Nat} {α : Type} (h : (⟨1, ![N]⟩ : Shape).BroadcastsInDim ⟨2, ![N, 1]⟩ ![0])
    (y : (⟨1, ![N]⟩ : Shape).Idx → α) (i : Fin N) :
    broadcastInDim ⟨2, ![N, 1]⟩ ![0] h y (ix2 i 0) = y (ix1 i) :=
  broadcastInDim_apply _ h y (ix2 i 0) (ix1 i) (fun a => match a with
    | ⟨0, _⟩ => by
      show i.val = if N = 1 then 0 else i.val
      split
      · have := i.isLt; omega
      · rfl)

/-- The degree column at node `i` is `dinv`. -/
theorem degcol_apply (i : Fin 100000) :
    rd2 100000 1 (W1 m ρ c (Proc.devRef .tc main_v11)) i 0 = dinv (val_main_v7 (F := Ideal) (m ((c : Thread nD τ).loc main_arg1))) i := by
  rw [W1_v11]
  exact (vecColumn_apply (N := 100000) bcast_S100000_S100000x1_0 _ i).trans (invSqrtDegree_apply _ _ _ _ i)

/-- After the first region: the dense product's rows, each scaled by its node's `dinv`. -/
theorem s1_apply (i : Fin 100000) (j : Fin 128) :
    rd2 100000 128 (W2 m ρ c (Proc.devRef .tc main_v12)) i j
      = dense (fun i j => (m ((c : Thread nD τ).loc main_arg0)) (ix2 i j)) (fun j k => (m ((c : Thread nD τ).loc main_arg2)) (ix2 j k)) i j * dinv (val_main_v7 (F := Ideal) (m ((c : Thread nD τ).loc main_arg1))) i := by
  rw [W2_v12, region0_final (V1 m ρ) c i j]
  show (∑ j' : Fin 128, rd2 100000 128 (W1 m ρ c (Proc.devRef .tc main_arg0)) i j' * rd2 128 128 (W1 m ρ c (Proc.devRef .tc main_arg2)) j' j)
      * rd2 100000 1 (W1 m ρ c (Proc.devRef .tc main_v11)) i 0 = _
  rw [degcol_apply, W1_arg0, W1_arg2]
  rfl

/-- The first aggregation at `(i, j)`. -/
theorem a1_apply (i : Fin 100000) (j : Fin 128) :
    rd2 100000 128 (W3 m ρ c (Proc.devRef .tc main_v22)) i j
      = (0 : EReal) + ∑ e ∈ into (val_main_v7 (F := Ideal) (m ((c : Thread nD τ).loc main_arg1))) i,
          dense (fun i j => (m ((c : Thread nD τ).loc main_arg0)) (ix2 i j)) (fun j k => (m ((c : Thread nD τ).loc main_arg2)) (ix2 j k)) (srcRow hN (val_main_v32 (F := Ideal) (m ((c : Thread nD τ).loc main_arg1))) e) j * dinv (val_main_v7 (F := Ideal) (m ((c : Thread nD τ).loc main_arg1))) (srcRow hN (val_main_v32 (F := Ideal) (m ((c : Thread nD τ).loc main_arg1))) e) := by
  rw [W3_v22]
  refine (aggregate_apply hN _ _ _ _ _ _ i j).trans ?_
  refine congrArg (fun z : EReal => (0 : EReal) + z) ?_
  exact Finset.sum_congr rfl fun e _ => s1_apply m ρ c _ j

/-- After the second region: the second dense product of the rectified first layer, each row scaled by `dinv`. -/
theorem s2_apply (i : Fin 100000) (k : Fin 64) :
    rd2 100000 64 (W4 m ρ c (Proc.devRef .tc main_v23)) i k
      = dense (Cert.Gcn.hidden hN (val_main_v32 (F := Ideal) (m ((c : Thread nD τ).loc main_arg1))) (val_main_v7 (F := Ideal) (m ((c : Thread nD τ).loc main_arg1))) (fun i j => (m ((c : Thread nD τ).loc main_arg0)) (ix2 i j)) (fun j k => (m ((c : Thread nD τ).loc main_arg2)) (ix2 j k))) (fun j k => (m ((c : Thread nD τ).loc main_arg3)) (ix2 j k)) i k * dinv (val_main_v7 (F := Ideal) (m ((c : Thread nD τ).loc main_arg1))) i := by
  rw [W4_v23, region1_final (V3 m ρ) c i k]
  show (∑ j : Fin 128,
        max ((rd2 100000 128 (W3 m ρ c (Proc.devRef .tc main_v22)) i j + rd2 100000 128 (W3 m ρ c (Proc.devRef .tc main_v12)) i j)
              * rd2 100000 1 (W3 m ρ c (Proc.devRef .tc main_v11)) i 0) 0
          * rd2 128 64 (W3 m ρ c (Proc.devRef .tc main_arg3)) j k)
      * rd2 100000 1 (W3 m ρ c (Proc.devRef .tc main_v11)) i 0 = _
  rw [W3_v11, W2_v11, degcol_apply, W3_arg3, W2_arg3, W1_arg3, W3_v12]
  unfold dense Cert.Gcn.hidden layerK
  refine congrArg (fun z : EReal => z * dinv (val_main_v7 (F := Ideal) (m ((c : Thread nD τ).loc main_arg1))) i) ?_
  refine Finset.sum_congr rfl fun j _ => ?_
  rw [a1_apply, s1_apply]

/-- The second aggregation at `(i, k)`. -/
theorem a2_apply (i : Fin 100000) (k : Fin 64) :
    rd2 100000 64 (W5 m ρ c (Proc.devRef .tc main_v33)) i k
      = (0 : EReal) + ∑ e ∈ into (val_main_v7 (F := Ideal) (m ((c : Thread nD τ).loc main_arg1))) i,
          dense (Cert.Gcn.hidden hN (val_main_v32 (F := Ideal) (m ((c : Thread nD τ).loc main_arg1))) (val_main_v7 (F := Ideal) (m ((c : Thread nD τ).loc main_arg1))) (fun i j => (m ((c : Thread nD τ).loc main_arg0)) (ix2 i j)) (fun j k => (m ((c : Thread nD τ).loc main_arg2)) (ix2 j k))) (fun j k => (m ((c : Thread nD τ).loc main_arg3)) (ix2 j k)) (srcRow hN (val_main_v32 (F := Ideal) (m ((c : Thread nD τ).loc main_arg1))) e) k
            * dinv (val_main_v7 (F := Ideal) (m ((c : Thread nD τ).loc main_arg1))) (srcRow hN (val_main_v32 (F := Ideal) (m ((c : Thread nD τ).loc main_arg1))) e) := by
  rw [W5_v33]
  refine (aggregate_apply hN _ _ _ _ _ _ i k).trans ?_
  refine congrArg (fun z : EReal => (0 : EReal) + z) ?_
  exact Finset.sum_congr rfl fun e _ => s2_apply m ρ c _ k

/-- THE KERNEL'S VALUE: the result buffer at `(i, k)` is the two-layer convolution. -/
theorem kernel_value (i : Fin 100000) (k : Fin 64) :
    rd2 100000 64 (W6 m ρ c (Proc.devRef .tc main_v34)) i k
      = G hN (val_main_v32 (F := Ideal) (m ((c : Thread nD τ).loc main_arg1))) (val_main_v7 (F := Ideal) (m ((c : Thread nD τ).loc main_arg1))) (fun i j => (m ((c : Thread nD τ).loc main_arg0)) (ix2 i j)) (fun j k => (m ((c : Thread nD τ).loc main_arg2)) (ix2 j k)) (fun j k => (m ((c : Thread nD τ).loc main_arg3)) (ix2 j k)) i k := by
  rw [W6_v34, region2_final (V5 m ρ) c i k]
  show (rd2 100000 64 (W5 m ρ c (Proc.devRef .tc main_v33)) i k + rd2 100000 64 (W5 m ρ c (Proc.devRef .tc main_v23)) i k)
      * rd2 100000 1 (W5 m ρ c (Proc.devRef .tc main_v11)) i 0 = _
  rw [W5_v11, W4_v11, W3_v11, W2_v11, degcol_apply, W5_v23, s2_apply, a2_apply]
  rfl

end Cert.KernelIdeal.KVal

end
-- ==== Proof.RefIdx.lean ====
/-
  The index columns of the reference, and the wrapped target index of an edge.

  The reference builds the `[E, 1]` source column (the source index with negative values shifted up by the number of
  nodes) and the raw target column several times over; each rebuilt column is the same term as the first. It also
  builds the wrapped TARGET column (negative values shifted up by the number of nodes). For an edge whose raw
  target index, read signed, is a node `i` (so it is not negative), the wrapped index is the raw one, and clamping
  it into `[0, N - 1]` gives `i` again.
-/
import proofs.«156982_j39058432590069_2_alg».proof.Proof.Gen.ReferenceIdeal.Read
import proofs.«156982_j39058432590069_2_alg».proof.Proof.LibGcnSpec

noncomputable section

open scoped BigOperators

namespace Cert.ReferenceIdeal.RefValue

open Cert.ReferenceIdeal Cert.ReferenceIdeal.Read Idealize.ShloMosaic Idealize.ShloMosaic.ValueIdx

/-- There is at least one node. -/
theorem hN : 0 < 100000 := by norm_num

variable (x1 : (⟨S2x1600000, .i32⟩ : BufTy).Contents (Elt Ideal))

/-! ## The rebuilt columns are the first ones -/

theorem v24_eq : val_main_v24 (F := Ideal) x1 = val_main_v32 (F := Ideal) x1 := rfl
theorem v66_eq : val_main_v66 (F := Ideal) x1 = val_main_v32 (F := Ideal) x1 := rfl
theorem v74_eq : val_main_v74 (F := Ideal) x1 = val_main_v32 (F := Ideal) x1 := rfl
theorem v38_eq : val_main_v38 (F := Ideal) x1 = val_main_v7 (F := Ideal) x1 := rfl
theorem v49_eq : val_main_v49 (F := Ideal) x1 = val_main_v7 (F := Ideal) x1 := rfl
theorem v80_eq : val_main_v80 (F := Ideal) x1 = val_main_v7 (F := Ideal) x1 := rfl
theorem v59_eq : val_main_v59 (F := Ideal) x1 = val_main_v17 (F := Ideal) x1 := rfl

/-! ## The wrapped target of an edge into a node -/

/-- The column entry `(e, 0)` of a broadcast `[E] → [E, 1]` reads the vector at `e`. -/
theorem idx7 (e : Fin 1600000) : idx_main_v7 (ix2 e (0 : Fin 1)) = ix1 e :=
  funext fun a => match a with | ⟨0, _⟩ => rfl
theorem idx17 (e : Fin 1600000) : idx_main_v17 (ix2 e (0 : Fin 1)) = ix1 e :=
  funext fun a => match a with | ⟨0, _⟩ => rfl

/-- A 32-bit word that reads, signed, as a node number is unchanged by "add N if negative", and clamping its value
    into `[0, N - 1]` gives that node number. -/
theorem wrap_clamp (b : BitVec 32) (i : Fin 100000) (h : b.toInt = (i.val : Int)) :
    min (Scalar.select (IntOp.cmpi .slt b 0#32) (IntOp.addi b 100000#32) b).toInt.toNat (100000 - 1) = i.val := by
  have hi := i.isLt
  have hc : ¬ (IntOp.cmpi .slt b 0#32 = 1) := by
    intro hc
    have := IntOp.cmpi_slt.mp hc
    rw [h, show (0#32 : BitVec 32).toInt = 0 from by decide] at this
    omega
  unfold Scalar.select
  rw [if_neg hc, h]
  omega

/-- THE WRAPPED TARGET: an edge whose raw target index, read signed, is the node `i` has clamped wrapped target `i`. -/
theorem target_wrap (i : Fin 100000) (e : Fin 1600000)
    (he : e ∈ Cert.Gcn.into (val_main_v7 (F := Ideal) x1) i) :
    Cert.VecOps.gatherElt hN (val_main_v17 (F := Ideal) x1) e = i := by
  have h7 : (val_main_v7 (F := Ideal) x1 (ix2 e 0)).toInt = (i.val : Int) := (Finset.mem_filter.mp he).2
  rw [val_main_v7_apply, idx7] at h7
  refine Fin.ext ?_
  show min (val_main_v17 (F := Ideal) x1 (ix2 e 0)).toInt.toNat (100000 - 1) = i.val
  rw [val_main_v17_apply, idx17, val_main_v16_apply, val_main_v13_apply, val_main_v15_apply, val_main_v12_apply,
    val_main_c_apply, val_main_v14_apply, val_main_c_2_apply]
  exact wrap_clamp _ i h7

end Cert.ReferenceIdeal.RefValue

end
-- ==== Proof.LibGcnRead.lean ====
/-
  The steps of one graph-convolution layer in the symmetric normalisation, read at an index, for any numbers of
  nodes, edges and columns.

  (1) The degree factor: ones scatter-added into zeros at the target indices, plus one, under the reciprocal square
      root, is `dinv` at every node: the scatter-add leaves at `n` zero plus one per edge whose target index is `n`.
  (2) The edge weight: the degree factor gathered at the wrapped target index times the degree factor gathered at
      the wrapped source index.
  (3) The layer: gather the source rows of the feature matrix `S : [N, C]`, scale row `e` by the edge weight,
      scatter-add the scaled rows into a zero matrix at the target indices, and add the self term `S(i, c) * w(i)`.
      At entry `(i, c)` the scatter-add contributes the sum over the edges into `i` (those whose target index, read
      signed, is `i`) of the gathered entry times the edge weight; so, when the edge weight of `e` is
      `dinv(target e) * dinv(source e)` and the self weight is `dinv(i) * dinv(i)`, the entry is `layerR`.
  The zero, one and weight arrays enter through what they are at an index, not through how they were built.
-/
import proofs.«156982_j39058432590069_2_alg».proof.Proof.LibGcnSpec

noncomputable section

open scoped BigOperators

namespace Cert.GcnRead

open Idealize.ShloMosaic Idealize.ShloMosaic.ValueIdx Cert.Gcn Cert.RowOps Cert.VecOps

variable {N E C : Nat}

/-- Ones scatter-added into zeros at the target indices, plus one, under the reciprocal square root: `dinv`. -/
theorem dinv_apply (wfs : ScatterDims.WF ⟨1, ![N]⟩ ⟨2, ![E, 1]⟩ ⟨1, ![E]⟩ [] [0] [0] 1)
    (zero one : FVec Ideal ⟨1, ![N]⟩ .f32) (ones : FVec Ideal ⟨1, ![E]⟩ .f32) (dst : IVec ⟨2, ![E, 1]⟩ 32)
    (hz : ∀ n : Fin N, zero (ix1 n) = 0) (h1 : ∀ n : Fin N, one (ix1 n) = 1) (ho : ∀ e : Fin E, ones (ix1 e) = 1)
    (n : Fin N) :
    Host.rsqrt (addf (Host.scatterAdd (vecScatterDims N E wfs) zero dst ones) one) (ix1 n) = dinv dst n := by
  show Ideal.rsqrt (Ideal.hostScatterAdd (vecScatterDims N E wfs) zero dst ones (ix1 n) + one (ix1 n)) = _
  rw [vecScatterAdd_apply, hz, h1]
  unfold dinv into
  refine congrArg (fun t => Ideal.rsqrt ((0 : EReal) + t + 1)) ?_
  exact Finset.sum_congr rfl fun e _ => ho e

/-- The degree factor gathered at the wrapped target times the degree factor gathered at the wrapped source. -/
theorem weight_apply (hN : 0 < N)
    (wfg : GatherDims.WF ⟨1, ![N]⟩ ⟨2, ![E, 1]⟩ ⟨1, ![E]⟩ [] [0] [] [0] [] 1 ![1])
    (d : FVec Ideal ⟨1, ![N]⟩ .f32) (src dstw dst : IVec ⟨2, ![E, 1]⟩ 32)
    (hd : ∀ n : Fin N, d (ix1 n) = dinv dst n) (e : Fin E) :
    mulf (Host.gather (vecGatherDims N E wfg) d dstw) (Host.gather (vecGatherDims N E wfg) d src) (ix1 e)
      = dinv dst (gatherElt hN dstw e) * dinv dst (gatherElt hN src e) := by
  show Host.gather (vecGatherDims N E wfg) d dstw (ix1 e) * Host.gather (vecGatherDims N E wfg) d src (ix1 e) = _
  rw [vecGather_apply hN, vecGather_apply hN, hd, hd]

/-- Gather, scale by the edge weights, scatter-add into zeros, add the weighted self term: at `(i, c)` this is
    `layerR` of the feature matrix read by coordinates. -/
theorem layer_apply (hN : 0 < N)
    (wfg : GatherDims.WF ⟨2, ![N, C]⟩ ⟨2, ![E, 1]⟩ ⟨2, ![E, C]⟩ [1] [0] [] [0] [] 1 ![1, C])
    (wfs : ScatterDims.WF ⟨2, ![N, C]⟩ ⟨2, ![E, 1]⟩ ⟨2, ![E, C]⟩ [1] [0] [0] 1)
    (S : FVec Ideal ⟨2, ![N, C]⟩ .f32) (src dstw dst : IVec ⟨2, ![E, 1]⟩ 32)
    (wE : FVec Ideal ⟨2, ![E, C]⟩ .f32) (zero selfw : FVec Ideal ⟨2, ![N, C]⟩ .f32)
    (hw : ∀ (e : Fin E) (c : Fin C),
      wE (ix2 e c) = dinv dst (gatherElt hN dstw e) * dinv dst (gatherElt hN src e))
    (hz : ∀ (i : Fin N) (c : Fin C), zero (ix2 i c) = 0)
    (hs : ∀ (i : Fin N) (c : Fin C), selfw (ix2 i c) = dinv dst i * dinv dst i) (i : Fin N) (c : Fin C) :
    addf (Host.scatterAdd (rowScatterDims N E C wfs) zero dst
        (mulf (Host.gather (rowGatherDims N E C wfg) S src) wE)) (mulf S selfw) (ix2 i c)
      = layerR hN src dstw dst (fun i c => S (ix2 i c)) i c := by
  show Ideal.hostScatterAdd (rowScatterDims N E C wfs) zero dst
        (mulf (Host.gather (rowGatherDims N E C wfg) S src) wE) (ix2 i c) + S (ix2 i c) * selfw (ix2 i c) = _
  rw [rowScatterAdd_apply, hz, hs]
  unfold layerR
  refine congrArg (fun t => (0 : EReal) + t + S (ix2 i c) * (dinv dst i * dinv dst i)) ?_
  refine Finset.sum_congr rfl fun e _ => ?_
  show Host.gather (rowGatherDims N E C wfg) S src (ix2 e c) * wE (ix2 e c) = _
  rw [rowGather_apply hN, hw]

end Cert.GcnRead

end
-- ==== Proof.RefDinv.lean ====
/-
  The degree factor and the edge and self weights of the reference, read at an index.

  `deg(n)` is computed as a scatter-add of ones into zeros at the raw target indices, plus one; `dinv = deg^(-1/2)`.
  The weight of edge `e` is `dinv` gathered at the wrapped target of `e` times `dinv` gathered at the wrapped source
  of `e`; the self weight of node `i` is `dinv(i) * dinv(i)`. Both are broadcast along the columns.
  The second layer recomputes all of this; the recomputed arrays are the same terms as the first ones.
-/
import proofs.«156982_j39058432590069_2_alg».proof.Proof.RefIdx
import proofs.«156982_j39058432590069_2_alg».proof.Proof.LibGcnRead
import Idealize.ShloMosaic.Lib.IdealHost

noncomputable section

open scoped BigOperators

namespace Cert.ReferenceIdeal.RefValue

open Cert.ReferenceIdeal Cert.ReferenceIdeal.Read Idealize.ShloMosaic Idealize.ShloMosaic.ValueIdx
open Cert.Gcn Cert.VecOps

variable (x1 : (⟨S2x1600000, .i32⟩ : BufTy).Contents (Elt Ideal))

/-! ## The constant vectors -/

theorem zeros_v6 (n : Fin 100000) : val_main_v6 (F := Ideal) (ix1 n) = 0 := by
  rw [val_main_v6_apply, val_main_cst_0_apply, Ideal.ofBits_def, Ideal.ofBits_zero_f32]

theorem ones_v9 (n : Fin 100000) : val_main_v9 (F := Ideal) (ix1 n) = 1 := by
  rw [val_main_v9_apply, val_main_cst_1_apply, Ideal.ofBits_def, Ideal.ofBits_one_f32]

theorem ones_v5 (e : Fin 1600000) : val_main_v5 (F := Ideal) (ix1 e) = 1 := by
  rw [val_main_v5_apply, val_main_cst_apply, Ideal.ofBits_def, Ideal.ofBits_one_f32]

/-! ## The degree factor -/

/-- The reciprocal square-root degree at node `n`: one over the square root of one plus the number of edges into `n`.
    The program's scatter record is the vector scatter of the library, field by field. -/
theorem dinv_node (n : Fin 100000) :
    val_main_v11 (F := Ideal) x1 (ix1 n) = dinv (val_main_v7 (F := Ideal) x1) n :=
  Cert.GcnRead.dinv_apply Gen.scatter_S100000_S1600000x1_S1600000_n_0_0_1_wf (val_main_v6 (F := Ideal))
    (val_main_v9 (F := Ideal)) (val_main_v5 (F := Ideal)) (val_main_v7 (F := Ideal) x1) zeros_v6 ones_v9 ones_v5 n

/-- The second layer's degree factor is the first layer's. -/
theorem v53_eq : val_main_v53 (F := Ideal) x1 = val_main_v11 (F := Ideal) x1 := rfl

/-! ## The edge weights -/

/-- The weight of edge `e`: `dinv` at its wrapped target times `dinv` at its wrapped source.
    The program's gather record is the vector gather of the library, field by field. -/
theorem weight_edge (e : Fin 1600000) :
    val_main_v26 (F := Ideal) x1 (ix1 e)
      = dinv (val_main_v7 (F := Ideal) x1) (gatherElt hN (val_main_v17 (F := Ideal) x1) e)
        * dinv (val_main_v7 (F := Ideal) x1) (gatherElt hN (val_main_v32 (F := Ideal) x1) e) :=
  Cert.GcnRead.weight_apply hN Gen.gather_S100000_S1600000x1_S1600000_n_0_n_n_0_1_1_wf (val_main_v11 (F := Ideal) x1)
    (val_main_v32 (F := Ideal) x1) (val_main_v17 (F := Ideal) x1) (val_main_v7 (F := Ideal) x1) (dinv_node x1) e

/-- The second layer's edge weights are the first layer's. -/
theorem v68_eq : val_main_v68 (F := Ideal) x1 = val_main_v26 (F := Ideal) x1 := rfl

theorem idx_col128 (e : Fin 1600000) (c : Fin 128) : idx_main_v34 (idx_main_v35 (ix2 e c)) = ix1 e :=
  funext fun a => match a with | ⟨0, _⟩ => rfl
theorem idx_col64 (e : Fin 1600000) (c : Fin 64) : idx_main_v76 (idx_main_v77 (ix2 e c)) = ix1 e :=
  funext fun a => match a with | ⟨0, _⟩ => rfl

/-- The edge weights broadcast along 128 columns. -/
theorem weight_bcast128 (e : Fin 1600000) (c : Fin 128) :
    val_main_v35 (F := Ideal) x1 (ix2 e c)
      = dinv (val_main_v7 (F := Ideal) x1) (gatherElt hN (val_main_v17 (F := Ideal) x1) e)
        * dinv (val_main_v7 (F := Ideal) x1) (gatherElt hN (val_main_v32 (F := Ideal) x1) e) := by
  rw [val_main_v35_apply, val_main_v34_apply, idx_col128, weight_edge]

/-- The edge weights broadcast along 64 columns. -/
theorem weight_bcast64 (e : Fin 1600000) (c : Fin 64) :
    val_main_v77 (F := Ideal) x1 (ix2 e c)
      = dinv (val_main_v7 (F := Ideal) x1) (gatherElt hN (val_main_v17 (F := Ideal) x1) e)
        * dinv (val_main_v7 (F := Ideal) x1) (gatherElt hN (val_main_v32 (F := Ideal) x1) e) := by
  rw [val_main_v77_apply, val_main_v76_apply, idx_col64, v68_eq, weight_edge]

/-! ## The self weights -/

theorem idx_self128 (i : Fin 100000) (c : Fin 128) : idx_main_v41 (idx_main_v42 (ix2 i c)) = ix1 i :=
  funext fun a => match a with | ⟨0, _⟩ => rfl
theorem idx_self64 (i : Fin 100000) (c : Fin 64) : idx_main_v83 (idx_main_v84 (ix2 i c)) = ix1 i :=
  funext fun a => match a with | ⟨0, _⟩ => rfl

/-- The self weight `dinv(i) * dinv(i)` broadcast along 128 columns. -/
theorem self_bcast128 (i : Fin 100000) (c : Fin 128) :
    val_main_v42 (F := Ideal) x1 (ix2 i c)
      = dinv (val_main_v7 (F := Ideal) x1) i * dinv (val_main_v7 (F := Ideal) x1) i := by
  rw [val_main_v42_apply, val_main_v41_apply, idx_self128, val_main_v40_apply, dinv_node, Ideal.mulf_def]

/-- The self weight `dinv(i) * dinv(i)` broadcast along 64 columns. -/
theorem self_bcast64 (i : Fin 100000) (c : Fin 64) :
    val_main_v84 (F := Ideal) x1 (ix2 i c)
      = dinv (val_main_v7 (F := Ideal) x1) i * dinv (val_main_v7 (F := Ideal) x1) i := by
  rw [val_main_v84_apply, val_main_v83_apply, idx_self64, val_main_v82_apply, v53_eq, dinv_node, Ideal.mulf_def]

/-! ## The zero matrices -/

theorem zeros128 (i : Fin 100000) (c : Fin 128) : val_main_v37 (F := Ideal) (ix2 i c) = 0 := by
  rw [val_main_v37_apply, val_main_cst_7_apply, Ideal.ofBits_def, Ideal.ofBits_zero_f32]

theorem zeros64 (i : Fin 100000) (c : Fin 64) : val_main_v79 (F := Ideal) (ix2 i c) = 0 := by
  rw [val_main_v79_apply, val_main_cst_17_apply, Ideal.ofBits_def, Ideal.ofBits_zero_f32]

theorem relu_zero (i : Fin 100000) (c : Fin 128) : val_main_call0_v0 (F := Ideal) (ix2 i c) = 0 := by
  rw [val_main_call0_v0_apply, val_main_call0_cst_apply, Ideal.ofBits_def, Ideal.ofBits_zero_f32]

end Cert.ReferenceIdeal.RefValue

end
-- ==== Proof.RefLayers.lean ====
/-
  The two layers of the reference, each read at an entry as `layerR` of its dense product.

  Layer one: gather the rows of `x W1` at the wrapped source indices, scale by the edge weights, scatter-add into
  zeros at the raw target indices, add `x W1` scaled by the self weights. Layer two: the same with the 64-column
  product `h W2`. Both are instances of the column-generic layer lemma: the program's gather and scatter records are
  the library's row gather and row scatter field by field, and the rebuilt index columns are the first ones.
-/
import proofs.«156982_j39058432590069_2_alg».proof.Proof.RefDinv

noncomputable section

open scoped BigOperators

namespace Cert.ReferenceIdeal.RefValue

open Cert.ReferenceIdeal Cert.ReferenceIdeal.Read Idealize.ShloMosaic Idealize.ShloMosaic.ValueIdx
open Cert.Gcn Cert.RowOps

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128x64, .f32⟩ : BufTy).Contents (Elt Ideal))

/-- The first layer before rectification, at `(i, c)`: `layerR` of the product `x W1`. -/
theorem layer1 (i : Fin 100000) (c : Fin 128) :
    val_main_v44 (F := Ideal) x0 x1 x2 (ix2 i c)
      = layerR hN (val_main_v32 (F := Ideal) x1) (val_main_v17 (F := Ideal) x1) (val_main_v7 (F := Ideal) x1)
          (fun i c => val_main_v4 (F := Ideal) x0 x2 (ix2 i c)) i c :=
  Cert.GcnRead.layer_apply hN Gen.gather_S100000x128_S1600000x1_S1600000x128_1_0_n_n_0_1_1128_wf
    Gen.scatter_S100000x128_S1600000x1_S1600000x128_1_0_0_1_wf (val_main_v4 (F := Ideal) x0 x2)
    (val_main_v32 (F := Ideal) x1) (val_main_v17 (F := Ideal) x1) (val_main_v7 (F := Ideal) x1)
    (val_main_v35 (F := Ideal) x1) (val_main_v37 (F := Ideal)) (val_main_v42 (F := Ideal) x1)
    (weight_bcast128 x1) zeros128 (self_bcast128 x1) i c

/-- The second layer, at `(i, c)`: `layerR` of the product `h W2`. -/
theorem layer2 (i : Fin 100000) (c : Fin 64) :
    val_main_v86 (F := Ideal) x0 x1 x2 x3 (ix2 i c)
      = layerR hN (val_main_v32 (F := Ideal) x1) (val_main_v17 (F := Ideal) x1) (val_main_v7 (F := Ideal) x1)
          (fun i c => val_main_v46 (F := Ideal) x0 x1 x2 x3 (ix2 i c)) i c :=
  Cert.GcnRead.layer_apply hN Gen.gather_S100000x64_S1600000x1_S1600000x64_1_0_n_n_0_1_164_wf
    Gen.scatter_S100000x64_S1600000x1_S1600000x64_1_0_0_1_wf (val_main_v46 (F := Ideal) x0 x1 x2 x3)
    (val_main_v32 (F := Ideal) x1) (val_main_v17 (F := Ideal) x1) (val_main_v7 (F := Ideal) x1)
    (val_main_v77 (F := Ideal) x1) (val_main_v79 (F := Ideal)) (val_main_v84 (F := Ideal) x1)
    (weight_bcast64 x1) zeros64 (self_bcast64 x1) i c

end Cert.ReferenceIdeal.RefValue

end
-- ==== Proof.RefValue.lean ====
/-
  THE REFERENCE IS THE TWO-LAYER GRAPH CONVOLUTION `G`.

  Each layer of the reference is `layerR` of a dense product (the symmetric normalisation, every edge's message
  scaled by `dinv(target) * dinv(source)`). Because the wrapped target of an edge into node `i` is `i` itself, and
  `dinv(i)` is a nonnegative real, `layerR` is `layerK` (the target's factor taken out of the sum). The first dense
  product is `x W1` read by coordinates; the rectification is a maximum with zero; the second dense product is the
  rectified first layer times `W2`.
-/
import proofs.«156982_j39058432590069_2_alg».proof.Proof.RefLayers

noncomputable section

open scoped BigOperators

namespace Cert.ReferenceIdeal.RefValue

open Cert.ReferenceIdeal Cert.ReferenceIdeal.Read Idealize.ShloMosaic Idealize.ShloMosaic.ValueIdx

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128x64, .f32⟩ : BufTy).Contents (Elt Ideal))

/-! ## The dense products read by coordinates -/

theorem lidx4 (i : Fin 100000) (c : Fin 128) (k : Fin 128) : lidx_main_v4 (ix2 i c) k = ix2 i k :=
  funext fun a => match a with | ⟨0, _⟩ => rfl | ⟨1, _⟩ => rfl
theorem ridx4 (i : Fin 100000) (c : Fin 128) (k : Fin 128) : ridx_main_v4 (ix2 i c) k = ix2 k c :=
  funext fun a => match a with | ⟨0, _⟩ => rfl | ⟨1, _⟩ => rfl
theorem lidx46 (i : Fin 100000) (c : Fin 64) (k : Fin 128) : lidx_main_v46 (ix2 i c) k = ix2 i k :=
  funext fun a => match a with | ⟨0, _⟩ => rfl | ⟨1, _⟩ => rfl
theorem ridx46 (i : Fin 100000) (c : Fin 64) (k : Fin 128) : ridx_main_v46 (ix2 i c) k = ix2 k c :=
  funext fun a => match a with | ⟨0, _⟩ => rfl | ⟨1, _⟩ => rfl

/-- The first dense product is `x W1`. -/
theorem dense1 : (fun (i : Fin 100000) (c : Fin 128) => val_main_v4 (F := Ideal) x0 x2 (ix2 i c))
    = Cert.Gcn.dense (fun i j => x0 (ix2 i j)) (fun j k => x2 (ix2 j k)) := by
  funext i c
  rw [val_main_v4_apply]
  unfold Cert.Gcn.dense
  refine Finset.sum_congr rfl fun k _ => ?_
  rw [lidx4, ridx4]

/-- The first layer before rectification is `layerK` of `x W1`. -/
theorem layer1K (i : Fin 100000) (c : Fin 128) :
    val_main_v44 (F := Ideal) x0 x1 x2 (ix2 i c)
      = Cert.Gcn.layerK hN (val_main_v32 (F := Ideal) x1) (val_main_v7 (F := Ideal) x1)
          (Cert.Gcn.dense (fun i j => x0 (ix2 i j)) (fun j k => x2 (ix2 j k))) i c := by
  have h1 := layer1 x0 x1 x2 i c
  rw [dense1, ← Cert.Gcn.layerK_eq_layerR hN _ _ _ (target_wrap x1)] at h1
  exact h1

/-- The rectified first layer is `hidden`. -/
theorem hidden_eq (i : Fin 100000) (c : Fin 128) :
    val_main_v45 (F := Ideal) x0 x1 x2 (ix2 i c)
      = Cert.Gcn.hidden hN (val_main_v32 (F := Ideal) x1) (val_main_v7 (F := Ideal) x1)
          (fun i j => x0 (ix2 i j)) (fun j k => x2 (ix2 j k)) i c := by
  rw [val_main_v45_apply, layer1K, relu_zero, Ideal.maximumf_def]
  unfold Cert.Gcn.hidden
  rfl

/-- The second dense product is the rectified first layer times `W2`. -/
theorem dense2 : (fun (i : Fin 100000) (c : Fin 64) => val_main_v46 (F := Ideal) x0 x1 x2 x3 (ix2 i c))
    = Cert.Gcn.dense (Cert.Gcn.hidden hN (val_main_v32 (F := Ideal) x1) (val_main_v7 (F := Ideal) x1)
        (fun i j => x0 (ix2 i j)) (fun j k => x2 (ix2 j k))) (fun j k => x3 (ix2 j k)) := by
  funext i c
  rw [val_main_v46_apply]
  unfold Cert.Gcn.dense
  refine Finset.sum_congr rfl fun k _ => ?_
  rw [lidx46, ridx46, hidden_eq]

/-- THE REFERENCE'S RESULT at `(i, k)` is `G` of the source column, the raw target column and the three matrices. -/
theorem ref_value (i : Fin 100000) (k : Fin 64) :
    val_main_v86 (F := Ideal) x0 x1 x2 x3 (ix2 i k)
      = Cert.Gcn.G (N := 100000) (E := 1600000) hN (val_main_v32 (F := Ideal) x1) (val_main_v7 (F := Ideal) x1)
          (fun i j => x0 (ix2 i j)) (fun j k => x2 (ix2 j k)) (fun j k => x3 (ix2 j k)) i k := by
  have h2 := layer2 x0 x1 x2 x3 i k
  rw [dense2, ← Cert.Gcn.layerK_eq_layerR hN _ _ _ (target_wrap x1)] at h2
  exact h2

end Cert.ReferenceIdeal.RefValue

end
-- ==== Proof.lean ====
/-
  A two-layer graph convolution: three tiled regions with the edge gather / scatter-add between them, against the
  plain formulation.

  Both programs compute, for nodes `i` and edges `e` (source row clamped, target index exact), with
  `dinv(i) = (1 + number of edges into i)^(-1/2)`,
      layer(S)(i, c) = sum over e into i of S(src e, c) * dinv(i) * dinv(src e)  +  S(i, c) * dinv(i)^2,
      result = layer(relu(layer(x W1)) W2).
  The reference scales every edge message by `dinv(target) * dinv(source)`. The kernel scales the rows of the dense
  product by `dinv` once (first and second region), aggregates the scaled rows with no per-edge factor, adds the
  node's own scaled row and scales the sum by `dinv(i)` again (second and third region). The two arrangements agree
  on the extended reals because `dinv(i)` is a nonnegative real number, over which multiplication distributes
  whatever the summands are (LibGcnSpec: `layer_law`, `layerK_eq_layerR`); a matrix product into a zero accumulator
  and a change of float format are exact at the ideal instance.

  The kernel's result array is read off its run (KRun: the run with the result named; KRegion0/1/2: each region's
  output array as one function of the arrays it finds; KChain: the buffers traced through @main), the reference's off
  its run read stage by stage (RefValue); both are the function `Cert.Gcn.G` of the arguments.
-/
import proofs.«156982_j39058432590069_2_alg».proof.Defs
import proofs.«156982_j39058432590069_2_alg».proof.Proof.Gen.Kernel
import proofs.«156982_j39058432590069_2_alg».proof.Proof.Gen.Kernel.Skeleton
import proofs.«156982_j39058432590069_2_alg».proof.Proof.Gen.Kernel.Launch
import proofs.«156982_j39058432590069_2_alg».proof.Proof.Gen.Kernel.Points
import proofs.«156982_j39058432590069_2_alg».proof.Proof.Gen.Kernel.Frame
import proofs.«156982_j39058432590069_2_alg».proof.Proof.Gen.KernelIdeal
import proofs.«156982_j39058432590069_2_alg».proof.Proof.Gen.KernelIdeal.Skeleton
import proofs.«156982_j39058432590069_2_alg».proof.Proof.Gen.KernelIdeal.Launch
import proofs.«156982_j39058432590069_2_alg».proof.Proof.Gen.KernelIdeal.Points
import proofs.«156982_j39058432590069_2_alg».proof.Proof.Gen.KernelIdeal.Frame
import proofs.«156982_j39058432590069_2_alg».proof.Proof.Gen.ReferenceIdeal
import proofs.«156982_j39058432590069_2_alg».proof.Proof.Gen.Pre_finite_inputs
import proofs.«156982_j39058432590069_2_alg».proof.Proof.Gen.ReferenceIdeal.Run
import proofs.«156982_j39058432590069_2_alg».proof.Proof.Gen.ReferenceIdeal.Read
import proofs.«156982_j39058432590069_2_alg».proof.Proof.KRun
import proofs.«156982_j39058432590069_2_alg».proof.Proof.KChain
import proofs.«156982_j39058432590069_2_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

/-- The kernel as printed runs and leaves its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs end with the same result array: each is `Cert.Gcn.G` of
    the arguments, entry by entry. -/
theorem algebraic : Cert.algebraic_KernelIdeal_ReferenceIdeal := by
  intro m ρ m' ρ' _ hagree
  refine ⟨fun c => Cert.KernelIdeal.Gen.W6 m ρ c (Proc.devRef .tc Cert.KernelIdeal.main_v34),
    Cert.KernelIdeal.KVal.run_named m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v86_eq, (hagree c).1, (hagree c).2.1, (hagree c).2.2.1, (hagree c).2.2.2]
  funext idx
  obtain ⟨i, k, rfl⟩ : ∃ (i : Fin 100000) (k : Fin 64), idx = ix2 i k := ⟨idx 0, idx 1, eq_ix2 idx⟩
  exact (Cert.ReferenceIdeal.RefValue.ref_value _ _ _ _ i k).trans (Cert.KernelIdeal.KVal.kernel_value m ρ c i k).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
